-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 41
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S100000x128, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S100000x64, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call1_cst : Ref sig .tc := ⟨.hbm, 74, rfl⟩
abbrev main_call1_v0 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call2_cst : Ref sig .tc := ⟨.hbm, 81, rfl⟩
abbrev main_call2_v0 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KerRun.lean ====
/-
  The idealized kernel's run, with its RESULT named.

  The program is four segments in order: a stretch of host operations (the neighbour aggregate and four reshapes), the
  first kernel region, a second host stretch (the column means and variances), the second kernel region.  Each segment
  takes the buffer contents the previous one leaves, so the contents at the return are a fold from the launch memory.
  Read at the argument buffers the fold's end is the launch memory, since no segment writes an argument; read at the
  result buffer it is the second region's output array after its last write-back.  So every weakly fair execution
  terminates, the arguments end as launched, and the result buffer ends at that array.
-/
import proofs.«127043_j56727928046274_1_alg».proof.Proof.Gen.KernelIdeal.Frame
import Idealize.ShloMosaic.Lib.Pipeline.Regions

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is not a kernel staging buffer, so the thread state holds it through every segment. -/
theorem result_unscoped : Proc.devRef .tc main_v25 ∈ Pipeline.ucRefs τ sig := mem_uc main_v25 (by decide)

set_option backward.isDefEq.respectTransparency.types false in
/-- Every weakly fair execution terminates; the result buffer ends at the contents the fold of the four segments gives
    it, and the eight argument buffers end as launched. -/
theorem run_main : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- each core's first thread state: its unscoped buffers at the launch memory, its generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state holds every unscoped buffer at the fold's end: read them all against the final state
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (result_unscoped),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The fold's value at the result buffer is the second region's output array after all twenty write-backs. -/
theorem result_eq (c : Dev nD) :
    W4 m ρ c (Proc.devRef .tc main_v25) = (dat1 (V3 m ρ) c).arrAt 7 cfg1.N := W4_arr m ρ c 7

end Cert.KernelIdeal.KerRun

end
-- ==== Proof.LibRealEntries.lean ====
/-
  Real entries in the extended reals: general facts, free of any program.

  An extended real is REAL when it is the image of a real number (neither infinity).  Real numbers are closed under
  sums and products, so:
    * a host gather of an array of real numbers holds real numbers (each entry of the result IS an entry of the
      operand, at the operand index the start indices select);
    * a host scatter-add into an array of real numbers, of updates that are real numbers, holds real numbers (each
      entry is the operand's entry plus the finite sum of the updates that land on it);
    * an entry whose flag "|a i| < +infinity" is 1 is real (|x| = max x (−x), and max x (−x) < ⊤ excludes both ends).
-/
import Idealize.ShloMosaic.PureOps.Ideal
import Idealize.ShloMosaic.Lib.ValueIdx

noncomputable section

open scoped BigOperators

namespace Idealize.ShloMosaic.RealEntries

open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is real. -/
theorem IsReal.sum {ι : Type} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The float word +0.0 denotes a real number. -/
theorem zero_word_real : IsReal (Ideal.ofBits .f32 0x00000000#32) := by
  have h : Ideal.ofBits .f32 0x00000000#32 = 0 := by simp [Ideal.ofBits, Ideal.ieee]
  rw [h]; exact IsReal.zero

/-- A host gather of an array of real numbers holds real numbers: every entry is an entry of the operand. -/
theorem gather_real {s si t : Shape} {w : Nat} (d : GatherDims s si t) (x : s.Idx → EReal) (idx : IVec si w)
    (hx : ∀ i, IsReal (x i)) (j : t.Idx) : IsReal (Host.gather d x idx j) := hx _

/-- A host scatter-add of real updates into an array of real numbers holds real numbers: each entry is the operand's
    plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  have e : Host.scatterAdd d x idx upd i = Ideal.hostScatterAdd d x idx upd i := rfl
  rw [e]; unfold Ideal.hostScatterAdd
  exact (hx i).add (IsReal.sum _ _ fun j _ => hu j)

/-- The float word of +infinity denotes the top of the extended reals. -/
theorem top_word : Ideal.ofBits .f32 0x7F800000#32 = ⊤ := by simp [Ideal.ofBits, Ideal.ieee]

/-- An extended real whose absolute value is below the top is a real number. -/
theorem real_of_abs_lt_top {x : EReal} (h : max x (-x) < ⊤) : IsReal x := by
  induction x using EReal.rec with
  | bot => simp at h
  | top => simp at h
  | coe r => exact ⟨r, rfl⟩

/-- An entry whose flag "|a i| < +infinity" is 1 is a real number. -/
theorem real_of_flag {s : Shape} (a B : FVec Ideal s .f32) (hB : ∀ i, B i = Ideal.ofBits .f32 0x7F800000#32) (i : s.Idx)
    (e : cmpf .olt (Host.absf a) B i = 1#1) : IsReal (a i) := by
  have e' : Ideal.cmp .olt (max (a i) (-(a i))) (B i) = 1#1 := e
  rw [hB i, top_word] at e'
  unfold Ideal.cmp at e'
  refine real_of_abs_lt_top ?_
  by_contra hlt
  simp [hlt] at e'

end Idealize.ShloMosaic.RealEntries

end
-- ==== Proof.KerHost0.lean ====
/-
  What the first kernel region finds in its input arrays: the first stretch of host operations, read back.

  Before the first region the program computes the NEIGHBOUR AGGREGATE: the second argument holds two rows of row
  numbers, sources and destinations, one column per edge; a negative source is wrapped by adding 100000; for every edge
  the source's feature row is gathered, and the gathered rows are scatter-added into an array of zeros at the
  destinations.  It also reshapes four bias-like vectors from [128] to [1, 128].  Nothing else is written, so the
  features and the first weight matrix reach the region as launched.

  The aggregate is kept as ONE function of the two arguments and never opened, except to see that it holds real
  numbers when the features do: each of its entries is zero plus a finite sum of gathered entries, and every gathered
  entry is an entry of the feature array.
-/
import proofs.«127043_j56727928046274_1_alg».proof.Proof.KerRun
import proofs.«127043_j56727928046274_1_alg».proof.Proof.LibRealEntries
import Idealize.ShloMosaic.Lib.StableHlo.Run
import Idealize.ShloMosaic.PureOps.Ideal

noncomputable section

namespace Cert.KernelIdeal.KerHost

open Cert.KernelIdeal Cert.KernelIdeal.Gen
open Idealize.ShloMosaic Idealize.ShloMosaic.TcCoe Idealize.ShloMosaic.Tactic Idealize.SL.Sem
open Idealize.ShloMosaic.RealEntries

/-- Row `r` of the edge table as a vector of 1250000 row numbers (`r = 0`: sources, `r = 1`: destinations). -/
def srcRows (ei : IVec S2x1250000 32) : IVec S1250000 32 :=
  shapeCast S1250000 (extractStridedSlice S1x1250000 ![0, 0] ei slices_S2x1250000_S1x1250000_0_0) shapeCasts_S1x1250000_S1250000
def dstRows (ei : IVec S2x1250000 32) : IVec S1250000 32 :=
  shapeCast S1250000 (extractStridedSlice S1x1250000 ![1, 0] ei slices_S2x1250000_S1x1250000_1_0) shapeCasts_S1x1250000_S1250000

/-- The source row numbers with a negative one wrapped around by the row count. -/
def wrappedSrc (ei : IVec S2x1250000 32) : IVec S1250000 32 :=
  select (cmpi .slt (srcRows ei) (broadcastInDim S1250000 ![] bcast_S_S1250000 (constantI S_ 32 0#32)))
    (addi (srcRows ei) (broadcastInDim S1250000 ![] bcast_S_S1250000 (constantI S_ 32 100000#32))) (srcRows ei)

/-- The neighbour aggregate: the gathered source rows, scatter-added into zeros at the destination rows. -/
def agg (x : FVec Ideal S100000x64 .f32) (ei : IVec S2x1250000 32) : FVec Ideal S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 (dstRows ei))
    (Host.gather gather_S100000x64_S1250000x1_S1250000x64_1_0_n_n_0_1_164 x
      (broadcastInDim S1250000x1 ![0] bcast_S1250000_S1250000x1_0 (wrappedSrc ei)))

/-- The aggregate of an array of real numbers holds real numbers. -/
theorem agg_real (x : FVec Ideal S100000x64 .f32) (ei : IVec S2x1250000 32) (hx : ∀ i, IsReal (x i)) (i : S100000x64.Idx) :
    IsReal (agg x ei i) :=
  scatterAdd_real _ _ _ _ (fun _ => zero_word_real) (fun j => gather_real _ x _ hx j) i

variable (m : (ℓ : Loc nD τ sig) → Buf (Elt Ideal) ℓ) (ρ : Dev nD → PrngReg)

/-- Window 0 of the first region is the feature array, as launched. -/
theorem entry0_x (c : Dev nD) : (V1 m ρ c main_arg0 : S100000x64.Idx → EReal) = m ((c.tc : Thread nD τ).loc main_arg0) := by
  show StableHlo.after hostOps0 (W0 m ρ c) (Proc.devRef .tc main_arg0) = _
  after_results

/-- Window 1 of the first region is the neighbour aggregate of the launched features and edge table. -/
theorem entry0_agg (c : Dev nD) : (V1 m ρ c main_v13 : S100000x64.Idx → EReal)
    = agg (m ((c.tc : Thread nD τ).loc main_arg0)) (m ((c.tc : Thread nD τ).loc main_arg1)) := by
  show StableHlo.after hostOps0 (W0 m ρ c) (Proc.devRef .tc main_v13) = _
  after_results
  rfl

/-- Window 2 of the first region is the first weight matrix, as launched. -/
theorem entry0_W1 (c : Dev nD) : (V1 m ρ c main_arg2 : S64x128.Idx → EReal) = m ((c.tc : Thread nD τ).loc main_arg2) := by
  show StableHlo.after hostOps0 (W0 m ρ c) (Proc.devRef .tc main_arg2) = _
  after_results

/-- Window 3 of the first region is the first bias as a row. -/
theorem entry0_b1 (c : Dev nD) : (V1 m ρ c main_v14 : S1x128.Idx → EReal)
    = shapeCast S1x128 (m ((c.tc : Thread nD τ).loc main_arg3) : S128.Idx → EReal) shapeCasts_S128_S1x128 := by
  show StableHlo.after hostOps0 (W0 m ρ c) (Proc.devRef .tc main_v14) = _
  after_results
  rfl

end Cert.KernelIdeal.KerHost

end
-- ==== Proof.Spec.lean ====
/-
  The mathematics of this kernel, free of any program: a two-layer perceptron with batch normalisation between the
  layers, over N = 100000 rows.

  Row i of the first layer is  z i = h i · W1 + b1  (a sum over the 64 input columns).  The batch statistics of column j
  are the mean  (∑ i, z i j) / N  and a variance, which the two programs spell differently:
    * as "mean of squares minus square of mean":   (∑ i, z i j ²) / N − mean j ²          (`varK`)
    * as "mean of squared deviations":             (∑ i, (z i j − mean j)²) / N           (`varR`).
  The second layer normalises each entry, scales and shifts it, clamps below at zero, multiplies by W2, adds b2 and
  clamps again (`tail`).

  Everything is stated over plain functions of `Fin` coordinates with values in the extended reals; the float words
  that occur (100000.0, the epsilon 1e-5 as a float, +0.0) are kept as the words they are, and the two of them whose
  real value matters are evaluated here, once.
-/
import Idealize.ShloMosaic.PureOps.Ideal
import Idealize.ShloMosaic.Lib.ValueIdx

noncomputable section

open scoped BigOperators

namespace Cert.Spec

open Idealize.ShloMosaic

/-- The number of rows, as the float word 100000.0. -/
def nrows : EReal := Ideal.ofBits .f32 0x47C35000#32
/-- The normalisation's epsilon, as the float word nearest 1e-5. -/
def eps : EReal := Ideal.ofBits .f32 0x3727C5AC#32
/-- The float word +0.0. -/
def zero : EReal := Ideal.ofBits .f32 0x00000000#32

/-- +0.0 denotes the real 0. -/
theorem zero_eq : zero = 0 := by
  unfold zero; simp [Ideal.ofBits, Ideal.ieee]

/-- 100000.0 denotes the real 100000. -/
theorem nrows_eq : nrows = ((100000 : ℝ) : EReal) := by
  unfold nrows; simp [Ideal.ofBits, Ideal.ieee, -EReal.coe_mul]; norm_num

/-- One entry of a linear layer: the row `hrow` against column `j` of `W`, plus the bias. -/
def lin {K : Nat} (hrow : Fin K → EReal) (W : Fin K → Fin 128 → EReal) (b : Fin 128 → EReal) (j : Fin 128) : EReal :=
  (∑ k : Fin K, hrow k * W k j) + b j

/-- The column sums of `z`. -/
def colSum (z : Fin 100000 → Fin 128 → EReal) (j : Fin 128) : EReal := ∑ i : Fin 100000, z i j
/-- The column sums of the squares of `z`. -/
def colSumSq (z : Fin 100000 → Fin 128 → EReal) (j : Fin 128) : EReal := ∑ i : Fin 100000, z i j * z i j

/-- The column means. -/
def mean (z : Fin 100000 → Fin 128 → EReal) (j : Fin 128) : EReal := Ideal.div (colSum z j) nrows

/-- The variance as mean of squares minus square of mean. -/
def varK (z : Fin 100000 → Fin 128 → EReal) (j : Fin 128) : EReal :=
  Ideal.div (colSumSq z j) nrows - mean z j * mean z j

/-- The variance as mean of squared deviations from the mean. -/
def varR (z : Fin 100000 → Fin 128 → EReal) (j : Fin 128) : EReal :=
  Ideal.div (∑ i : Fin 100000, (z i j - mean z j) * (z i j - mean z j)) nrows

/-- One entry of the second layer's output, from a row `zrow` of the first layer and the column statistics. -/
def tail (zrow mu var gamma beta : Fin 128 → EReal) (W2 : Fin 128 → Fin 128 → EReal) (b2 : Fin 128 → EReal)
    (j : Fin 128) : EReal :=
  max ((∑ k : Fin 128, max ((zrow k - mu k) * Ideal.rsqrt (var k + eps) * gamma k + beta k) zero * W2 k j) + b2 j) zero

end Cert.Spec

end
-- ==== Proof.KerHost1.lean ====
/-
  What the second kernel region finds in its input arrays: the second stretch of host operations, read back.

  Between the two regions the program divides the first region's two accumulated rows — the column sums and the column
  sums of squares — by the row count 100000.0, and forms  (sum of squares / N) − (sum / N)·(sum / N):  the column means
  and the "mean of squares minus square of mean" variances.  The first region's per-row output reaches the second
  region untouched; the scale, shift and second-bias rows are the reshapes made before the first region, which
  neither region and no later host operation writes (read at (0, k) such a row is its vector at k); the second weight matrix is as launched.
-/
import proofs.«127043_j56727928046274_1_alg».proof.Proof.KerHost0
import proofs.«127043_j56727928046274_1_alg».proof.Proof.Spec
import Idealize.ShloMosaic.Lib.ValueLayout

noncomputable section

namespace Cert.KernelIdeal.KerHost

open Cert.KernelIdeal Cert.KernelIdeal.Gen
open Idealize.ShloMosaic Idealize.ShloMosaic.TcCoe Idealize.ShloMosaic.Tactic Idealize.SL.Sem
open Idealize.ShloMosaic.ValueIdx

variable (m : (ℓ : Loc nD τ sig) → Buf (Elt Ideal) ℓ) (ρ : Dev nD → PrngReg)

/-- Window 0 of the second region is the first region's per-row output array. -/
theorem entry1_z (c : Dev nD) : (V3 m ρ c main_v18_0 : S100000x128.Idx → EReal) = (dat0 (V1 m ρ) c).arrAt 4 cfg0.N := by
  show StableHlo.after hostOps1 (W2 m ρ c) (Proc.devRef .tc main_v18_0) = _
  after_results
  exact W2_arr m ρ c 4

/-- Window 1 of the second region, the mean row: the first region's accumulated column sum over the row count. -/
theorem entry1_mean (c : Dev nD) (k : Fin 128) : (V3 m ρ c main_v20 : S1x128.Idx → EReal) (ix2 (0 : Fin 1) k)
    = Ideal.div (((dat0 (V1 m ρ) c).arrAt 5 cfg0.N : S1x128.Idx → EReal) (ix2 (0 : Fin 1) k)) Cert.Spec.nrows := by
  have e : (V3 m ρ c main_v20 : S1x128.Idx → EReal)
      = Host.divf (F := Ideal) (W2 m ρ c (Proc.devRef .tc main_v18_1) : S1x128.Idx → EReal)
          (broadcastInDim S1x128 ![] bcast_S_S1x128 (constant (F := Ideal) S_ .f32 0x47C35000#32)) := by
    show StableHlo.after hostOps1 (W2 m ρ c) (Proc.devRef .tc main_v20) = _
    after_results
  rw [e, ← W2_arr m ρ c 5]
  rfl

/-- Window 2 of the second region, the variance row: sum of squares over the row count, minus the squared mean. -/
theorem entry1_var (c : Dev nD) (k : Fin 128) : (V3 m ρ c main_v24 : S1x128.Idx → EReal) (ix2 (0 : Fin 1) k)
    = Ideal.div (((dat0 (V1 m ρ) c).arrAt 6 cfg0.N : S1x128.Idx → EReal) (ix2 (0 : Fin 1) k)) Cert.Spec.nrows
      - Ideal.div (((dat0 (V1 m ρ) c).arrAt 5 cfg0.N : S1x128.Idx → EReal) (ix2 (0 : Fin 1) k)) Cert.Spec.nrows
        * Ideal.div (((dat0 (V1 m ρ) c).arrAt 5 cfg0.N : S1x128.Idx → EReal) (ix2 (0 : Fin 1) k)) Cert.Spec.nrows := by
  have e : (V3 m ρ c main_v24 : S1x128.Idx → EReal)
      = subf (Host.divf (F := Ideal) (W2 m ρ c (Proc.devRef .tc main_v18_2) : S1x128.Idx → EReal)
            (broadcastInDim S1x128 ![] bcast_S_S1x128 (constant (F := Ideal) S_ .f32 0x47C35000#32)))
          (mulf (Host.divf (F := Ideal) (W2 m ρ c (Proc.devRef .tc main_v18_1) : S1x128.Idx → EReal)
              (broadcastInDim S1x128 ![] bcast_S_S1x128 (constant (F := Ideal) S_ .f32 0x47C35000#32)))
            (Host.divf (F := Ideal) (W2 m ρ c (Proc.devRef .tc main_v18_1) : S1x128.Idx → EReal)
              (broadcastInDim S1x128 ![] bcast_S_S1x128 (constant (F := Ideal) S_ .f32 0x47C35000#32)))) := by
    show StableHlo.after hostOps1 (W2 m ρ c) (Proc.devRef .tc main_v24) = _
    after_results
  rw [e, ← W2_arr m ρ c 5, ← W2_arr m ρ c 6]
  rfl

/-- Window 3 of the second region, the scale row, read at (0, k): the scale vector at k. -/
theorem entry1_gamma (c : Dev nD) (k : Fin 128) : (V3 m ρ c main_v15 : S1x128.Idx → EReal) (ix2 (0 : Fin 1) k)
    = (m ((c.tc : Thread nD τ).loc main_arg4) : S128.Idx → EReal) (ix1 k) := by
  have e : (V3 m ρ c main_v15 : S1x128.Idx → EReal)
      = shapeCast S1x128 (m ((c.tc : Thread nD τ).loc main_arg4) : S128.Idx → EReal) shapeCasts_S128_S1x128 := by
    show StableHlo.after hostOps1 (W2 m ρ c) (Proc.devRef .tc main_v15) = _
    after_results
    refine (W2_of_ne m ρ c main_v15 (by decide)).trans ?_
    show StableHlo.after hostOps0 (W0 m ρ c) (Proc.devRef .tc main_v15) = _
    after_results
    rfl
  rw [e]; exact shapeCast_a_1a_apply _ _ 0 k

/-- Window 4 of the second region, the shift row, read at (0, k): the shift vector at k. -/
theorem entry1_beta (c : Dev nD) (k : Fin 128) : (V3 m ρ c main_v16 : S1x128.Idx → EReal) (ix2 (0 : Fin 1) k)
    = (m ((c.tc : Thread nD τ).loc main_arg5) : S128.Idx → EReal) (ix1 k) := by
  have e : (V3 m ρ c main_v16 : S1x128.Idx → EReal)
      = shapeCast S1x128 (m ((c.tc : Thread nD τ).loc main_arg5) : S128.Idx → EReal) shapeCasts_S128_S1x128 := by
    show StableHlo.after hostOps1 (W2 m ρ c) (Proc.devRef .tc main_v16) = _
    after_results
    refine (W2_of_ne m ρ c main_v16 (by decide)).trans ?_
    show StableHlo.after hostOps0 (W0 m ρ c) (Proc.devRef .tc main_v16) = _
    after_results
    rfl
  rw [e]; exact shapeCast_a_1a_apply _ _ 0 k

/-- Window 6 of the second region, the second bias row, read at (0, k): the second bias at k. -/
theorem entry1_b2 (c : Dev nD) (k : Fin 128) : (V3 m ρ c main_v17 : S1x128.Idx → EReal) (ix2 (0 : Fin 1) k)
    = (m ((c.tc : Thread nD τ).loc main_arg7) : S128.Idx → EReal) (ix1 k) := by
  have e : (V3 m ρ c main_v17 : S1x128.Idx → EReal)
      = shapeCast S1x128 (m ((c.tc : Thread nD τ).loc main_arg7) : S128.Idx → EReal) shapeCasts_S128_S1x128 := by
    show StableHlo.after hostOps1 (W2 m ρ c) (Proc.devRef .tc main_v17) = _
    after_results
    refine (W2_of_ne m ρ c main_v17 (by decide)).trans ?_
    show StableHlo.after hostOps0 (W0 m ρ c) (Proc.devRef .tc main_v17) = _
    after_results
    rfl
  rw [e]; exact shapeCast_a_1a_apply _ _ 0 k

/-- Window 5 of the second region is the second weight matrix, as launched. -/
theorem entry1_W2 (c : Dev nD) : (V3 m ρ c main_arg6 : S128x128.Idx → EReal) = m ((c.tc : Thread nD τ).loc main_arg6) := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results

end Cert.KernelIdeal.KerHost

end
-- ==== Proof.KerRegion1Pay.lean ====
/-
  The second kernel's arithmetic, read at one entry.

  The body computes, for a block of 5000 rows of the first layer's output z, the second layer: each entry is
  normalised with the column's mean and variance, scaled and shifted, clamped below at zero, the clamped row is
  multiplied into column j of W2, the bias is added and the result is clamped again.  Read at row b and column j of the
  block this is exactly `Cert.Spec.tail` of row b of the block and the six parameter arrays: the contraction of the
  matrix product runs over the 128 columns of the row, every other operation is entry by entry, the parameter rows
  are stretched over the 5000 rows, and a change of float format does nothing to an extended real.
-/
import proofs.«127043_j56727928046274_1_alg».proof.Proof.Gen.KernelIdeal.Skeleton
import proofs.«127043_j56727928046274_1_alg».proof.Proof.Spec
import Idealize.ShloMosaic.Lib.ValueLayout
import Idealize.ShloMosaic.PureOps.Ideal.Laws
import Idealize.ShloMosaic.Lib.Pipeline.Value

noncomputable section

open scoped BigOperators

namespace Cert.KernelIdeal.Region1

open Idealize.ShloMosaic Idealize.ShloMosaic.ValueIdx Cert.KernelIdeal Cert.KernelIdeal.Gen

/-- The dimension numbers of the body's matrix product: rows of the left operand against columns of the right. -/
abbrev dotD : DotDims S5000x128 S128x128 S5000x128 := dot_S5000x128_S128x128_S5000x128_1_0_0_1_n_n

/-- The left operand's row coordinate is the output's row. -/
theorem lhs_row (i : S5000x128.Idx) (q : dotD.contr.Idx) : (dotD.lhsIdx i q 0).val = (i 0).val := by
  unfold DotDims.lhsIdx
  rw [dif_neg (show ¬(0 : Fin S5000x128.rank) ∈ dotD.lhsBatch by decide),
    dif_pos (show (0 : Fin S5000x128.rank) ∈ dotD.lhsNonContracting by decide)]
  rfl

/-- The left operand's column coordinate is the contraction position. -/
theorem lhs_col (i : S5000x128.Idx) (q : dotD.contr.Idx) : (dotD.lhsIdx i q 1).val = (q ⟨0, by decide⟩).val :=
  dotD.lhsIdx_val_of_single rfl i q

/-- The right operand's row coordinate is the contraction position. -/
theorem rhs_row (i : S5000x128.Idx) (q : dotD.contr.Idx) : (dotD.rhsIdx i q 0).val = (q ⟨0, by decide⟩).val :=
  dotD.rhsIdx_val_of_single rfl i q

/-- The right operand's column coordinate is the output's column. -/
theorem rhs_col (i : S5000x128.Idx) (q : dotD.contr.Idx) : (dotD.rhsIdx i q 1).val = (i 1).val := by
  unfold DotDims.rhsIdx
  rw [dif_neg (show ¬(1 : Fin S128x128.rank) ∈ dotD.rhsBatch by decide),
    dif_pos (show (1 : Fin S128x128.rank) ∈ dotD.rhsNonContracting by decide)]
  rfl

/-- The matrix product onto a zero accumulator, at row `b` and column `j`: the sum over the 128 columns `k` of the
    left operand's entry `(b, k)` times the right operand's entry `(k, j)`. -/
theorem matmul_at (x : FVec Ideal S5000x128 .bf16) (w : FVec Ideal S128x128 .bf16) (b : Fin 5000) (j : Fin 128) :
    matmul dotD none x w (constant (F := Ideal) S5000x128 .f32 0x00000000#32) (ix2 b j)
      = ∑ k : Fin 128, x (ix2 b k) * w (ix2 k j) := by
  refine (Ideal.matmul_constant_zero_apply dotD none x w (ix2 b j)).trans ?_
  rw [← Equiv.sum_comp (contrEquiv1 dotD 128 rfl rfl).symm]
  refine Finset.sum_congr rfl fun k _ => ?_
  have hk := contrEquiv1_symm_val dotD 128 rfl rfl k
  have el : dotD.lhsIdx (ix2 b j) ((contrEquiv1 dotD 128 rfl rfl).symm k) = ix2 b k := funext fun a => Fin.ext (by
    match a with
    | ⟨0, _⟩ => exact lhs_row _ _
    | ⟨1, _⟩ => exact (lhs_col _ _).trans hk)
  have er : dotD.rhsIdx (ix2 b j) ((contrEquiv1 dotD 128 rfl rfl).symm k) = ix2 k j := funext fun a => Fin.ext (by
    match a with
    | ⟨0, _⟩ => exact (rhs_row _ _).trans hk
    | ⟨1, _⟩ => exact rhs_col _ _)
  rw [el, er]

/-- A parameter row stretched over the 5000 rows of the block reads, at `(b, k)`, the row's entry `k`. -/
theorem row_at (v : FVec Ideal S1x128 .f32) (b : Fin 5000) (k : Fin 128) :
    broadcastTo S5000x128 v broadcasts_S1x128_S5000x128 (ix2 b k) = v (ix2 (0 : Fin 1) k) :=
  broadcastTo_1b_ab_apply v broadcasts_S1x128_S5000x128 b k

/-- THE PAYLOAD AT AN ENTRY: row `b`, column `j` of what the body stores is the second layer's entry `j` computed from
    row `b` of the loaded block of z, the mean, variance, scale and shift rows, the second weight matrix and bias. -/
theorem pay_at (v0 : FVec Ideal S1x128 .f32) (v5 : FVec Ideal S5000x128 .f32) (v7 v13 v17 : FVec Ideal S1x128 .f32)
    (v24 : FVec Ideal S128x128 .f32) (v27 : FVec Ideal S1x128 .f32) (b : Fin 5000) (j : Fin 128) :
    k1_pay1 (F := Ideal) v0 v5 v7 v13 v17 v24 v27 (ix2 b j)
      = Cert.Spec.tail (fun k => v5 (ix2 b k)) (fun k => v7 (ix2 (0 : Fin 1) k)) (fun k => v0 (ix2 (0 : Fin 1) k))
          (fun k => v13 (ix2 (0 : Fin 1) k)) (fun k => v17 (ix2 (0 : Fin 1) k)) (fun k j => v24 (ix2 k j))
          (fun k => v27 (ix2 (0 : Fin 1) k)) j := by
  unfold k1_pay1 Cert.Spec.tail Cert.Spec.eps Cert.Spec.zero
  simp only [shapeCast_self]
  simp only [maximumf_apply, addf_apply, broadcast_apply]
  rw [matmul_at, row_at]
  refine congrArg (fun x => max (x + v27 (ix2 (0 : Fin 1) j)) (Ideal.ofBits .f32 0x00000000#32)) ?_
  refine Finset.sum_congr rfl fun k _ => ?_
  simp only [truncf_apply, maximumf_apply, addf_apply, mulf_apply, subf_apply, broadcast_apply, row_at]
  rfl

end Cert.KernelIdeal.Region1

end
-- ==== Proof.KerRegion1Array.lean ====
/-
  From the second kernel's blocks to its output array.

  The grid has 20 points; point t works on rows 5000·t … 5000·t + 4999 of z and writes the same rows of the output,
  while the six parameter arrays (mean, variance, scale, shift, second weights, second bias) are read whole at every
  point.  What point t writes back is therefore rows 5000·t … of ONE function of the arrays the region finds: entry
  (i, j) is the second layer's entry j computed from row i of z.  The 20 blocks tile the 100000 rows (row r lies in
  block r / 5000), so after the last point the output array is that function everywhere.
-/
import proofs.«127043_j56727928046274_1_alg».proof.Proof.Gen.KernelIdeal.Frame
import proofs.«127043_j56727928046274_1_alg».proof.Proof.KerRegion1Pay
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-! ## The arrays the region finds, at their literal types -/

/-- Window 0's array: the first layer's output z. -/
abbrev arrZ : S100000x128.Idx → EReal := V c (Pipeline.arrRef spec1 0)
/-- Window 1's array: the column means, one row. -/
abbrev arrMean : S1x128.Idx → EReal := V c (Pipeline.arrRef spec1 1)
/-- Window 2's array: the column variances, one row. -/
abbrev arrVar : S1x128.Idx → EReal := V c (Pipeline.arrRef spec1 2)
/-- Window 3's array: the scale, one row. -/
abbrev arrGamma : S1x128.Idx → EReal := V c (Pipeline.arrRef spec1 3)
/-- Window 4's array: the shift, one row. -/
abbrev arrBeta : S1x128.Idx → EReal := V c (Pipeline.arrRef spec1 4)
/-- Window 5's array: the second layer's weights. -/
abbrev arrW2 : S128x128.Idx → EReal := V c (Pipeline.arrRef spec1 5)
/-- Window 6's array: the second layer's bias, one row. -/
abbrev arrB2 : S1x128.Idx → EReal := V c (Pipeline.arrRef spec1 6)

/-- The second layer's entry `(i, j)`, from those arrays. -/
def rowOut (i : Fin 100000) (j : Fin 128) : EReal :=
  Cert.Spec.tail (fun k => arrZ V c (ix2 i k)) (fun k => arrMean V c (ix2 (0 : Fin 1) k))
    (fun k => arrVar V c (ix2 (0 : Fin 1) k)) (fun k => arrGamma V c (ix2 (0 : Fin 1) k))
    (fun k => arrBeta V c (ix2 (0 : Fin 1) k)) (fun k j => arrW2 V c (ix2 k j))
    (fun k => arrB2 V c (ix2 (0 : Fin 1) k)) j

/-- The whole output array as one function of the arrays the region finds. -/
def outArr : S100000x128.Idx → EReal := fun x => rowOut V c (x 0) (x 1)

theorem hz : (![0, 0] : Fin 2 → Nat) = fun _ => 0 := funext fun a => by fin_cases a <;> rfl

/-- The printed index maps, decided over the 20 points: windows 0 and 7 sit at block row `t`, every other window at
    block (0, 0). -/
theorem idx_facts : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-! ## Each window's block read at an entry -/

/-- Block `t` of z is rows `5000·t …` of the array: its entry `(b, k)` is the array's entry `(r, k)` with `r = 5000·t + b`. -/
theorem blkZ_at (t : Fin cfg1.N) (b : Fin 5000) (k : Fin 128) (r : Fin 100000) (hr : r.val = 5000 * t.val + b.val) :
    (iblk1 V c 0 t : FVec Ideal S5000x128 .f32) (ix2 b k) = arrZ V c (ix2 r k) := by
  obtain ⟨e0, e1, -⟩ := idx_facts t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t (0 : Fin 2) * 5000 + 1 * b.val = r.val; rw [e0, hr]; omega
  | ⟨1, _⟩ => show win1_0.index t (1 : Fin 2) * 128 + 1 * k.val = k.val; rw [e1]; omega

/-- The mean row's block is the row itself, at every point. -/
theorem blkMean_at (t : Fin cfg1.N) (k : Fin 128) :
    (iblk1 V c 1 t : FVec Ideal S1x128 .f32) (ix2 (0 : Fin 1) k) = arrMean V c (ix2 (0 : Fin 1) k) := by
  obtain ⟨-, -, -, -, e0, e1, -⟩ := idx_facts t
  unfold iblk1
  rw [View.read_apply]
  show V c (Pipeline.arrRef spec1 1) _ = V c (Pipeline.arrRef spec1 1) _
  refine congrArg (V c (Pipeline.arrRef spec1 1)) ?_
  funext a
  apply Fin.ext
  match a with
  | ⟨0, _⟩ => show win1_1.index t (0 : Fin 2) * 1 + 1 * 0 = 0; rw [e0]
  | ⟨1, _⟩ => show win1_1.index t (1 : Fin 2) * 128 + 1 * k.val = k.val; rw [e1]; omega

/-- The variance row's block is the row itself, at every point. -/
theorem blkVar_at (t : Fin cfg1.N) (k : Fin 128) :
    (iblk1 V c 2 t : FVec Ideal S1x128 .f32) (ix2 (0 : Fin 1) k) = arrVar V c (ix2 (0 : Fin 1) k) := by
  obtain ⟨-, -, -, -, -, -, e0, e1, -⟩ := idx_facts t
  unfold iblk1
  rw [View.read_apply]
  show V c (Pipeline.arrRef spec1 2) _ = V c (Pipeline.arrRef spec1 2) _
  refine congrArg (V c (Pipeline.arrRef spec1 2)) ?_
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The scale row's block is the row itself, at every point. -/
theorem blkGamma_at (t : Fin cfg1.N) (k : Fin 128) :
    (iblk1 V c 3 t : FVec Ideal S1x128 .f32) (ix2 (0 : Fin 1) k) = arrGamma V c (ix2 (0 : Fin 1) k) := by
  obtain ⟨-, -, -, -, -, -, -, -, e0, e1, -⟩ := idx_facts t
  unfold iblk1
  rw [View.read_apply]
  show V c (Pipeline.arrRef spec1 3) _ = V c (Pipeline.arrRef spec1 3) _
  refine congrArg (V c (Pipeline.arrRef spec1 3)) ?_
  funext a
  apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

/-- The shift row's block is the row itself, at every point. -/
theorem blkBeta_at (t : Fin cfg1.N) (k : Fin 128) :
    (iblk1 V c 4 t : FVec Ideal S1x128 .f32) (ix2 (0 : Fin 1) k) = arrBeta V c (ix2 (0 : Fin 1) k) := by
  obtain ⟨-, -, -, -, -, -, -, -, -, -, e0, e1, -⟩ := idx_facts t
  unfold iblk1
  rw [View.read_apply]
  show V c (Pipeline.arrRef spec1 4) _ = V c (Pipeline.arrRef spec1 4) _
  refine congrArg (V c (Pipeline.arrRef spec1 4)) ?_
  funext a
  apply Fin.ext
  match a with
  | ⟨0, _⟩ => show win1_4.index t (0 : Fin 2) * 1 + 1 * 0 = 0; rw [e0]
  | ⟨1, _⟩ => show win1_4.index t (1 : Fin 2) * 128 + 1 * k.val = k.val; rw [e1]; omega

/-- The second bias row's block is the row itself, at every point. -/
theorem blkB2_at (t : Fin cfg1.N) (k : Fin 128) :
    (iblk1 V c 6 t : FVec Ideal S1x128 .f32) (ix2 (0 : Fin 1) k) = arrB2 V c (ix2 (0 : Fin 1) k) := by
  obtain ⟨-, -, -, -, -, -, -, -, -, -, -, -, -, -, e0, e1⟩ := idx_facts t
  unfold iblk1
  rw [View.read_apply]
  show V c (Pipeline.arrRef spec1 6) _ = V c (Pipeline.arrRef spec1 6) _
  refine congrArg (V c (Pipeline.arrRef spec1 6)) ?_
  funext a
  apply Fin.ext
  match a with
  | ⟨0, _⟩ => show win1_6.index t (0 : Fin 2) * 1 + 1 * 0 = 0; rw [e0]
  | ⟨1, _⟩ => show win1_6.index t (1 : Fin 2) * 128 + 1 * k.val = k.val; rw [e1]; omega

/-- The second weight matrix's block is the matrix itself, at every point. -/
theorem blkW2_at (t : Fin cfg1.N) (k j : Fin 128) :
    (iblk1 V c 5 t : FVec Ideal S128x128 .f32) (ix2 k j) = arrW2 V c (ix2 k j) := by
  obtain ⟨-, -, -, -, -, -, -, -, -, -, -, -, e0, e1, -⟩ := idx_facts t
  unfold iblk1
  rw [View.read_apply]
  show V c (Pipeline.arrRef spec1 5) _ = V c (Pipeline.arrRef spec1 5) _
  refine congrArg (V c (Pipeline.arrRef spec1 5)) ?_
  funext a
  apply Fin.ext
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-- Where entry `(b, j)` of the output's block `t` sits in the output array: row `5000·t + b`, column `j`. -/
theorem embOut_at (t : Fin cfg1.N) (b : Fin 5000) (j : Fin 128) (r : Fin 100000) (hr : r.val = 5000 * t.val + b.val) :
    ((cfg1.win 7).blk t).view.emb (ix2 b j) = (ix2 r j : S100000x128.Idx) := by
  obtain ⟨-, -, e0, e1, -⟩ := idx_facts t
  funext a
  apply Fin.ext
  match a with
  | ⟨0, _⟩ => show win1_7.index t (0 : Fin 2) * 5000 + 1 * b.val = r.val; rw [e0, hr]; omega
  | ⟨1, _⟩ => show win1_7.index t (1 : Fin 2) * 128 + 1 * j.val = j.val; rw [e1]; omega

/-! ## What a point writes back -/

/-- WHAT POINT `t` WRITES BACK is block `t` of `outArr`: the body's payload at `(b, j)` is the second layer's entry
    computed from row `b` of z's block, which is row `5000·t + b` of z, and from the parameter arrays. -/
theorem flushed_eq (t : Fin cfg1.N) :
    (dat1 (F := Ideal) V c).flushed 7 t = ((cfg1.win 7).blk t).view.read (Elt Ideal) (outArr V c) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S1x128) hz, View.ld_unit_zero (S := S128x128) hz]
  refine funext fun (y : S5000x128.Idx) => ?_
  obtain ⟨b, j, rfl⟩ : ∃ (b : Fin 5000) (j : Fin 128), y = ix2 b j := ⟨y 0, y 1, eq_ix2 y⟩
  have hN : cfg1.N = 20 := N_1
  have ht : t.val < 20 := hN ▸ t.isLt
  have hr : 5000 * t.val + b.val < 100000 := by have := b.isLt; omega
  refine (pay_at (iblk1 V c 2 t) (iblk1 V c 0 t) (iblk1 V c 1 t) (iblk1 V c 3 t) (iblk1 V c 4 t) (iblk1 V c 5 t) (iblk1 V c 6 t) b j).trans ?_
  show _ = outArr V c (((cfg1.win 7).blk t).view.emb (ix2 b j))
  rw [embOut_at t b j ⟨5000 * t.val + b.val, hr⟩ rfl]
  show _ = rowOut V c ⟨5000 * t.val + b.val, hr⟩ j
  unfold rowOut
  simp only [blkZ_at V c t b _ ⟨5000 * t.val + b.val, hr⟩ rfl, blkMean_at V c t, blkVar_at V c t, blkGamma_at V c t,
    blkBeta_at V c t, blkW2_at V c t, blkB2_at V c t]

/-! ## The blocks tile the array -/

/-- An index of the output array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v25).slice (win1_7.rect t)).set ↔ _
  rw [View.set_slice_whole, Rect.mem_set_unit]
  exact Iff.rfl

/-- Every index of the output array is in some point's block: row `r` lies in block `r / 5000`. -/
theorem cover (i : S100000x128.Idx) :
    ∃ t : Fin cfg1.N, (cfg1.win 7).flush t = true ∧ i ∈ ((cfg1.win 7).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, e0, e1, -⟩ := idx_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-! ## The output array after the region -/

/-- After the last point the output array is `outArr` of the arrays the region found. -/
theorem arr_final : (dat1 (F := Ideal) V c).arrAt 7 cfg1.N = outArr V c :=
  (dat1 (F := Ideal) V c).arrAt_eq_of_cover 7 (outArr V c) (fun t _ => flushed_eq V c t) cover

/-- ENTRY `(i, j)` OF THE OUTPUT ARRAY after the region: the second layer's entry `j` computed from row `i` of z and the
    mean, variance, scale and shift rows, the second weight matrix and the second bias row, all as the region finds them. -/
theorem out_final (i : Fin 100000) (j : Fin 128) :
    (dat1 (F := Ideal) V c).arrAt 7 cfg1.N (ix2 i j)
      = Cert.Spec.tail (fun k => arrZ V c (ix2 i k)) (fun k => arrMean V c (ix2 (0 : Fin 1) k))
          (fun k => arrVar V c (ix2 (0 : Fin 1) k)) (fun k => arrGamma V c (ix2 (0 : Fin 1) k))
          (fun k => arrBeta V c (ix2 (0 : Fin 1) k)) (fun k j => arrW2 V c (ix2 k j))
          (fun k => arrB2 V c (ix2 (0 : Fin 1) k)) j :=
  congrFun (arr_final V c) (ix2 i j)

end Cert.KernelIdeal.Region1

end
-- ==== Proof.KerValue1.lean ====
/-
  The idealized kernel's result, entry by entry, in terms of the FIRST region's three output arrays.

  The result buffer ends at the second region's output array.  Entry (i, j) of that array is the second layer applied
  to row i of the second region's first input — which is the first region's per-row output —, with the mean and
  variance rows the host computed between the regions from the first region's two accumulated rows, and with the
  scale, shift, second weight matrix and second bias as launched.
-/
import proofs.«127043_j56727928046274_1_alg».proof.Proof.KerHost1
import proofs.«127043_j56727928046274_1_alg».proof.Proof.KerRegion1Array

noncomputable section

namespace Cert.KernelIdeal.KerValue

open Cert.KernelIdeal Cert.KernelIdeal.Gen Cert.KernelIdeal.KerHost
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The first region's per-row output array, its accumulated column sums and its accumulated column sums of squares,
    after the region's last write-back. -/
abbrev zArr (c : Dev nD) : S100000x128.Idx → EReal := (dat0 (V1 m ρ) c).arrAt 4 cfg0.N
abbrev sumRow (c : Dev nD) : S1x128.Idx → EReal := (dat0 (V1 m ρ) c).arrAt 5 cfg0.N
abbrev sumSqRow (c : Dev nD) : S1x128.Idx → EReal := (dat0 (V1 m ρ) c).arrAt 6 cfg0.N

/-- Entry (i, j) of the result: the second layer on row i of the first region's output, with the statistics formed
    from the first region's accumulated rows and the remaining parameters as launched. -/
theorem result_apply (c : Dev nD) (i : Fin 100000) (j : Fin 128) :
    (W4 m ρ c (Proc.devRef .tc main_v25) : S100000x128.Idx → EReal) (ix2 i j)
      = Cert.Spec.tail (fun k => zArr m ρ c (ix2 i k))
          (fun k => Ideal.div (sumRow m ρ c (ix2 (0 : Fin 1) k)) Cert.Spec.nrows)
          (fun k => Ideal.div (sumSqRow m ρ c (ix2 (0 : Fin 1) k)) Cert.Spec.nrows
            - Ideal.div (sumRow m ρ c (ix2 (0 : Fin 1) k)) Cert.Spec.nrows
              * Ideal.div (sumRow m ρ c (ix2 (0 : Fin 1) k)) Cert.Spec.nrows)
          (fun k => (m ((c.tc : Thread nD τ).loc main_arg4) : S128.Idx → EReal) (ix1 k))
          (fun k => (m ((c.tc : Thread nD τ).loc main_arg5) : S128.Idx → EReal) (ix1 k))
          (fun k j => (m ((c.tc : Thread nD τ).loc main_arg6) : S128x128.Idx → EReal) (ix2 k j))
          (fun k => (m ((c.tc : Thread nD τ).loc main_arg7) : S128.Idx → EReal) (ix1 k)) j := by
  have h0 : (W4 m ρ c (Proc.devRef .tc main_v25) : S100000x128.Idx → EReal) (ix2 i j)
      = ((dat1 (V3 m ρ) c).arrAt 7 cfg1.N : S100000x128.Idx → EReal) (ix2 i j) :=
    congrFun (Cert.KernelIdeal.KerRun.result_eq m ρ c) _
  have hz : (fun k : Fin 128 => Region1.arrZ (V3 m ρ) c (ix2 i k)) = fun k => zArr m ρ c (ix2 i k) :=
    funext fun k => congrFun (entry1_z m ρ c) _
  have hmean : (fun k : Fin 128 => Region1.arrMean (V3 m ρ) c (ix2 (0 : Fin 1) k))
      = fun k => Ideal.div (sumRow m ρ c (ix2 (0 : Fin 1) k)) Cert.Spec.nrows := funext fun k => entry1_mean m ρ c k
  have hvar : (fun k : Fin 128 => Region1.arrVar (V3 m ρ) c (ix2 (0 : Fin 1) k))
      = fun k => Ideal.div (sumSqRow m ρ c (ix2 (0 : Fin 1) k)) Cert.Spec.nrows
            - Ideal.div (sumRow m ρ c (ix2 (0 : Fin 1) k)) Cert.Spec.nrows
              * Ideal.div (sumRow m ρ c (ix2 (0 : Fin 1) k)) Cert.Spec.nrows := funext fun k => entry1_var m ρ c k
  have hg : (fun k : Fin 128 => Region1.arrGamma (V3 m ρ) c (ix2 (0 : Fin 1) k))
      = fun k => (m ((c.tc : Thread nD τ).loc main_arg4) : S128.Idx → EReal) (ix1 k) := funext fun k => entry1_gamma m ρ c k
  have hb : (fun k : Fin 128 => Region1.arrBeta (V3 m ρ) c (ix2 (0 : Fin 1) k))
      = fun k => (m ((c.tc : Thread nD τ).loc main_arg5) : S128.Idx → EReal) (ix1 k) := funext fun k => entry1_beta m ρ c k
  have hw : (fun k j : Fin 128 => Region1.arrW2 (V3 m ρ) c (ix2 k j))
      = fun k j => (m ((c.tc : Thread nD τ).loc main_arg6) : S128x128.Idx → EReal) (ix2 k j) :=
    funext fun k => funext fun j => congrFun (entry1_W2 m ρ c) _
  have hb2 : (fun k : Fin 128 => Region1.arrB2 (V3 m ρ) c (ix2 (0 : Fin 1) k))
      = fun k => (m ((c.tc : Thread nD τ).loc main_arg7) : S128.Idx → EReal) (ix1 k) := funext fun k => entry1_b2 m ρ c k
  rw [h0, Region1.out_final (V3 m ρ) c i j, hz, hmean, hvar, hg, hb, hw, hb2]

end Cert.KernelIdeal.KerValue

end
-- ==== Proof.KerRegion0Pieces.lean ====
/-
  What one run of the first kernel's body leaves in its three output buffers, as values.

  The body has two control cases. At the first grid point it first stores a zero row into each of the two
  accumulator buffers; at every point it then stores the affine layer of its row block into the first output buffer,
  reads each accumulator buffer back and stores it again with the block's column sums (of the entries, and of their
  squares) added. Each buffer is written through the rectangle that covers it whole, so what a buffer holds after the
  body is the payload of the last store into it, and a read-back of an accumulator that was just zeroed is the zero row.
-/
import proofs.«127043_j56727928046274_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Region0

open Cert.KernelIdeal Cert.KernelIdeal.Gen

variable {F : FTy → Type} [FloatOps F]

/-- The zero offsets of a rank-two rectangle, as the constant function. -/
theorem hz : (![0, 0] : Fin 2 → Nat) = fun _ => 0 := funext fun a => by fin_cases a <;> rfl

/-- First point, first output: the affine layer of the row block. -/
theorem outA4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond0_0 i) (x0 : Vec F S5000x64 .f32) (x1 : Vec F S5000x64 .f32) (x2 : Vec F S64x128 .f32) (x3 : Vec F S1x128 .f32) :
    out0_A_4 c i arg1 harg1 arg2 harg2 arg3 harg3 arg4 harg4 arg5 harg5 arg6 harg6 arg7 harg7 hc0 x0 x1 x2 x3 = k0_pay3 x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero (S := S5000x128) hz]
  simp only [View.readAt_eq_ld, harg1.read_unread, harg2.read_unread, harg3.read_unread, harg4.read_unread,
    View.ld_unit_zero (S := S5000x64) hz, View.ld_unit_zero (S := S64x128) hz, View.ld_unit_zero (S := S1x128) hz]

/-- First point, the accumulator of sums: the zero row plus the block's column sums. -/
theorem outA5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond0_0 i) (x0 : Vec F S5000x64 .f32) (x1 : Vec F S5000x64 .f32) (x2 : Vec F S64x128 .f32) (x3 : Vec F S1x128 .f32) :
    out0_A_5 c i arg1 harg1 arg2 harg2 arg3 harg3 arg4 harg4 arg5 harg5 arg6 harg6 arg7 harg7 hc0 x0 x1 x2 x3 = k0_pay4 x0 x1 x2 x3 (k0_pay1 (F := F)) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S5000x64) hz, View.ld_unit_zero (S := S64x128) hz, View.ld_unit_zero (S := S1x128) hz]

/-- First point, the accumulator of squares: the zero row plus the block's column sums of squares. -/
theorem outA6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond0_0 i) (x0 : Vec F S5000x64 .f32) (x1 : Vec F S5000x64 .f32) (x2 : Vec F S64x128 .f32) (x3 : Vec F S1x128 .f32) :
    out0_A_6 c i arg1 harg1 arg2 harg2 arg3 harg3 arg4 harg4 arg5 harg5 arg6 harg6 arg7 harg7 hc0 x0 x1 x2 x3 = k0_pay5 x0 x1 x2 x3 (k0_pay2 (F := F)) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S5000x64) hz, View.ld_unit_zero (S := S64x128) hz, View.ld_unit_zero (S := S1x128) hz]

/-- A later point, first output: the affine layer of the row block. -/
theorem outB4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (x0 : Vec F S5000x64 .f32) (x1 : Vec F S5000x64 .f32) (x2 : Vec F S64x128 .f32) (x3 : Vec F S1x128 .f32) (xo5 : Vec F S1x128 .f32) (xo6 : Vec F S1x128 .f32) :
    out0_B_4 c i arg1 harg1 arg2 harg2 arg3 harg3 arg4 harg4 arg5 harg5 arg6 harg6 arg7 harg7 hc0 x0 x1 x2 x3 xo5 xo6 = k0_pay3 x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero (S := S5000x128) hz]
  simp only [View.readAt_eq_ld, harg1.read_unread, harg2.read_unread, harg3.read_unread, harg4.read_unread, harg6.read_unread, harg7.read_unread,
    View.ld_unit_zero (S := S5000x64) hz, View.ld_unit_zero (S := S64x128) hz, View.ld_unit_zero (S := S1x128) hz]

/-- A later point, the accumulator of sums: what it held plus the block's column sums. -/
theorem outB5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (x0 : Vec F S5000x64 .f32) (x1 : Vec F S5000x64 .f32) (x2 : Vec F S64x128 .f32) (x3 : Vec F S1x128 .f32) (xo5 : Vec F S1x128 .f32) (xo6 : Vec F S1x128 .f32) :
    out0_B_5 c i arg1 harg1 arg2 harg2 arg3 harg3 arg4 harg4 arg5 harg5 arg6 harg6 arg7 harg7 hc0 x0 x1 x2 x3 xo5 xo6 = k0_pay4 x0 x1 x2 x3 xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero (S := S1x128) hz]
  simp only [View.readAt_eq_ld, harg1.read_unread, harg2.read_unread, harg3.read_unread, harg4.read_unread, harg6.read_unread, harg7.read_unread,
    View.ld_unit_zero (S := S5000x64) hz, View.ld_unit_zero (S := S64x128) hz, View.ld_unit_zero (S := S1x128) hz]

/-- A later point, the accumulator of squares: what it held plus the block's column sums of squares. -/
theorem outB6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i) (x0 : Vec F S5000x64 .f32) (x1 : Vec F S5000x64 .f32) (x2 : Vec F S64x128 .f32) (x3 : Vec F S1x128 .f32) (xo5 : Vec F S1x128 .f32) (xo6 : Vec F S1x128 .f32) :
    out0_B_6 c i arg1 harg1 arg2 harg2 arg3 harg3 arg4 harg4 arg5 harg5 arg6 harg6 arg7 harg7 hc0 x0 x1 x2 x3 xo5 xo6 = k0_pay5 x0 x1 x2 x3 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero (S := S1x128) hz]
  simp only [View.readAt_eq_ld, harg1.read_unread, harg2.read_unread, harg3.read_unread, harg4.read_unread, harg6.read_unread, harg7.read_unread,
    View.ld_unit_zero (S := S5000x64) hz, View.ld_unit_zero (S := S64x128) hz, View.ld_unit_zero (S := S1x128) hz]

end Cert.KernelIdeal.Region0

end
-- ==== Proof.KerRegion0Pay.lean ====
/-
  The body's arithmetic at one entry, over the extended reals.

  The first payload is an affine layer: entry (b, j) of the row block is the sum over the 64 input columns k of
  (x b k + a b k) · W k j, plus the bias b1 j (the change of float format before the product is the identity here, and
  the product accumulates into a zero block). The two accumulator payloads add to what the accumulator row held, at
  column j, the sum over the block's 5000 rows of the first payload's entries, respectively of their squares. The reset
  payloads are the zero row.
-/
import proofs.«127043_j56727928046274_1_alg».proof.Proof.Gen.KernelIdeal.Skeleton
import proofs.«127043_j56727928046274_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Region0

open Cert.KernelIdeal Cert.KernelIdeal.Gen

/-- The product of a 5000×64 block by a 64×128 matrix, accumulated into the zero block, at entry (b, j): the sum over
    the contracted coordinate of the products of the entries. -/
theorem matmul_block_apply (l : FVec Ideal S5000x64 .bf16) (r : FVec Ideal S64x128 .bf16) (b : Fin 5000) (j : Fin 128) :
    matmul dot_S5000x64_S64x128_S5000x128_1_0_0_1_n_n none l r (constant (F := Ideal) S5000x128 .f32 0x00000000#32) (ix2 b j)
      = ∑ k : Fin 64, l (ix2 b k) * r (ix2 k j) := by
  show FloatOps.matmul dot_S5000x64_S64x128_S5000x128_1_0_0_1_n_n none l r (constant (F := Ideal) S5000x128 .f32 0x00000000#32) (ix2 b j) = _
  rw [Ideal.matmul_constant_zero_apply, ← Equiv.sum_comp (contrEquiv1 dot_S5000x64_S64x128_S5000x128_1_0_0_1_n_n 64 rfl rfl).symm]
  refine Finset.sum_congr rfl fun k _ => ?_
  have ck := contrEquiv1_symm_val dot_S5000x64_S64x128_S5000x128_1_0_0_1_n_n 64 rfl rfl k
  have hl : dot_S5000x64_S64x128_S5000x128_1_0_0_1_n_n.lhsIdx (ix2 b j) ((contrEquiv1 dot_S5000x64_S64x128_S5000x128_1_0_0_1_n_n 64 rfl rfl).symm k) = ix2 b k := by
    funext ax; apply Fin.ext
    match ax with
    | ⟨0, _⟩ => rfl
    | ⟨1, _⟩ => exact (DotDims.lhsIdx_val_of_single dot_S5000x64_S64x128_S5000x128_1_0_0_1_n_n (cl := 1) rfl (ix2 b j) _).trans ck
  have hr : dot_S5000x64_S64x128_S5000x128_1_0_0_1_n_n.rhsIdx (ix2 b j) ((contrEquiv1 dot_S5000x64_S64x128_S5000x128_1_0_0_1_n_n 64 rfl rfl).symm k) = ix2 k j := by
    funext ax; apply Fin.ext
    match ax with
    | ⟨0, _⟩ => exact (DotDims.rhsIdx_val_of_single dot_S5000x64_S64x128_S5000x128_1_0_0_1_n_n (cr := 0) rfl (ix2 b j) _).trans ck
    | ⟨1, _⟩ => rfl
  rw [hl, hr]

/-- The lane sum over the 5000 rows of a block, at column j. -/
theorem colsum_block_apply (src : FVec Ideal S5000x128 .f32) (hφ : FKind.Formats .f32)
    (hacc : (0x00000000#32 : BitVec 32) = 0x00000000#32) (j : Fin 128) :
    multiReduction (F := Ideal) .add [0] S128 src 0x00000000#32 reduces_S5000x128_S128 hφ hacc (ix1 j)
      = ∑ b : Fin 5000, src (ix2 b j) := by
  refine (Ideal.multiReduction_add_single src 0x00000000#32 reduces_S5000x128_S128 hφ hacc (ix1 j)).trans ?_
  refine Finset.sum_congr rfl fun b _ => congrArg src ?_
  funext ax
  match ax with
  | ⟨0, _⟩ => rfl
  | ⟨1, _⟩ => rfl

/-- A row stored as a 1×128 block reads column j of the row. -/
theorem row_as_block_apply (v : FVec Ideal S128 .f32) (j : Fin 128) :
    shapeCast S1x128 v shapeCasts_S128_S1x128 (ix2 0 j) = v (ix1 j) := by
  refine shapeCast_apply v shapeCasts_S128_S1x128 (ix2 0 j) (ix1 j) ?_
  rw [Shape.rowMajor_val_one, Shape.rowMajor_val_two]
  show j.val = 0 * 128 + j.val
  omega

/-- The reset payloads are the zero row. -/
theorem pay1_apply (i : S1x128.Idx) : k0_pay1 (F := Ideal) i = Cert.Spec.zero := rfl
theorem pay2_apply (i : S1x128.Idx) : k0_pay2 (F := Ideal) i = Cert.Spec.zero := rfl

/-- The affine layer's payload at entry (b, j). -/
theorem pay3_apply (x0 x1 : FVec Ideal S5000x64 .f32) (x2 : FVec Ideal S64x128 .f32) (x3 : FVec Ideal S1x128 .f32)
    (b : Fin 5000) (j : Fin 128) :
    k0_pay3 (F := Ideal) x0 x1 x2 x3 (ix2 b j)
      = (∑ k : Fin 64, (x0 (ix2 b k) + x1 (ix2 b k)) * x2 (ix2 k j)) + x3 (ix2 0 j) := by
  unfold k0_pay3
  refine (addf_apply _ _ (ix2 b j)).trans ?_
  refine congrArg₂ (· + ·) ?_ ?_
  · refine (matmul_block_apply _ _ b j).trans ?_
    refine Finset.sum_congr rfl fun k _ => ?_
    rw [shapeCast_self]
    rfl
  · refine (broadcastTo_apply _ broadcasts_S1x128_S5000x128 (ix2 b j) (ix2 0 j) ?_).trans ?_
    · intro a
      match a with
      | ⟨0, _⟩ => rfl
      | ⟨1, _⟩ => rfl
    · exact congrFun (shapeCast_self x3 _) _

/-- The accumulator of sums: what it held at column j plus the column sum of the affine layer's block. -/
theorem pay4_apply (x0 x1 : FVec Ideal S5000x64 .f32) (x2 : FVec Ideal S64x128 .f32) (x3 : FVec Ideal S1x128 .f32)
    (acc : FVec Ideal S1x128 .f32) (j : Fin 128) :
    k0_pay4 (F := Ideal) x0 x1 x2 x3 acc (ix2 0 j)
      = acc (ix2 0 j) + ∑ b : Fin 5000, k0_pay3 (F := Ideal) x0 x1 x2 x3 (ix2 b j) := by
  unfold k0_pay4
  dsimp only
  refine (addf_apply _ _ (ix2 0 j)).trans ?_
  refine congrArg₂ (· + ·) ?_ ?_
  · exact congrFun (shapeCast_self acc _) _
  · refine (row_as_block_apply _ j).trans ?_
    exact colsum_block_apply _ _ _ j

/-- The accumulator of squares: what it held at column j plus the column sum of the squares of the block's entries. -/
theorem pay5_apply (x0 x1 : FVec Ideal S5000x64 .f32) (x2 : FVec Ideal S64x128 .f32) (x3 : FVec Ideal S1x128 .f32)
    (acc : FVec Ideal S1x128 .f32) (j : Fin 128) :
    k0_pay5 (F := Ideal) x0 x1 x2 x3 acc (ix2 0 j)
      = acc (ix2 0 j) + ∑ b : Fin 5000, k0_pay3 (F := Ideal) x0 x1 x2 x3 (ix2 b j) * k0_pay3 (F := Ideal) x0 x1 x2 x3 (ix2 b j) := by
  unfold k0_pay5
  dsimp only
  refine (addf_apply _ _ (ix2 0 j)).trans ?_
  refine congrArg₂ (· + ·) ?_ ?_
  · exact congrFun (shapeCast_self acc _) _
  · refine (row_as_block_apply _ j).trans ?_
    refine (colsum_block_apply _ _ _ j).trans ?_
    rfl

end Cert.KernelIdeal.Region0

end
-- ==== Proof.KerRegion0Blocks.lean ====
/-
  The first layer, row by row, as a function of the four arrays the first region reads, and each grid point's blocks
  as parts of those arrays.

  The region reads the node features x and the aggregate a (both 100000×64), the weights W1 (64×128) and the bias row
  b1 (1×128). Grid point t works on rows 5000·t … 5000·t + 4999 of x and a — entry (b, k) of its block is entry
  (5000·t + b, k) of the array — and on the whole of W1 and b1. So the affine payload of the point's blocks, at entry
  (b, j), is the first layer's entry (5000·t + b, j).
-/
import proofs.«127043_j56727928046274_1_alg».proof.Proof.Gen.KernelIdeal.Frame
import proofs.«127043_j56727928046274_1_alg».proof.Proof.Spec
import proofs.«127043_j56727928046274_1_alg».proof.Proof.KerRegion0Pay
import Idealize.ShloMosaic.Lib.Pipeline.Value

noncomputable section

open scoped BigOperators
open Idealize.ShloMosaic Idealize.ShloMosaic.TcCoe Idealize.SL.Sem Idealize.ShloMosaic.ValueIdx

namespace Cert.KernelIdeal.Region0

open Cert.KernelIdeal Cert.KernelIdeal.Gen

variable (V : (c : Dev nD) → (b : Ref sig .tc) → Buf (Elt Ideal) ((c : Thread nD τ).loc b)) (c : Dev nD)

/-- The node features as the region finds them. -/
abbrev arrX : S100000x64.Idx → EReal := V c (Pipeline.arrRef spec0 0)
/-- The aggregate as the region finds it. -/
abbrev arrAgg : S100000x64.Idx → EReal := V c (Pipeline.arrRef spec0 1)
/-- The first layer's weights as the region finds them. -/
abbrev arrW : S64x128.Idx → EReal := V c (Pipeline.arrRef spec0 2)
/-- The first layer's bias row as the region finds it. -/
abbrev arrB : S1x128.Idx → EReal := V c (Pipeline.arrRef spec0 3)

/-- Entry (i, j) of the first layer: row i of x + a against column j of W1, plus b1 j. -/
def zOf (i : Fin 100000) (j : Fin 128) : EReal :=
  Cert.Spec.lin (fun k : Fin 64 => arrX V c (ix2 i k) + arrAgg V c (ix2 i k)) (fun k j => arrW V c (ix2 k j))
    (fun j => arrB V c (ix2 0 j)) j

/-- The windows' block indices, decided over the grid: the row blocks of x, a and the first output move with the
    point; the weights, the bias row and the two accumulator rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The block of x at point t: rows 5000·t … of x. -/
theorem iblk_x (t : Fin cfg0.N) (y : S5000x64.Idx) (i : S100000x64.Idx)
    (h0 : (i 0).val = 5000 * t.val + (y 0).val) (h1 : (i 1).val = (y 1).val) :
    (iblk0 V c 0 t : S5000x64.Idx → EReal) y = arrX V c i := by
  obtain ⟨e0, e1, -⟩ := idx_facts t
  unfold iblk0
  rw [View.read_apply]
  show (V c (Pipeline.arrRef spec0 0) : S100000x64.Idx → EReal) _ = (V c (Pipeline.arrRef spec0 0) : S100000x64.Idx → EReal) i
  refine congrArg _ ?_
  funext a; apply Fin.ext
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- The block of a at point t: rows 5000·t … of a. -/
theorem iblk_agg (t : Fin cfg0.N) (y : S5000x64.Idx) (i : S100000x64.Idx)
    (h0 : (i 0).val = 5000 * t.val + (y 0).val) (h1 : (i 1).val = (y 1).val) :
    (iblk0 V c 1 t : S5000x64.Idx → EReal) y = arrAgg V c i := by
  obtain ⟨-, -, e0, e1, -⟩ := idx_facts t
  unfold iblk0
  rw [View.read_apply]
  show (V c (Pipeline.arrRef spec0 1) : S100000x64.Idx → EReal) _ = (V c (Pipeline.arrRef spec0 1) : S100000x64.Idx → EReal) i
  refine congrArg _ ?_
  funext a; apply Fin.ext
  match a with
  | ⟨0, _⟩ => show win0_1.index t (0 : Fin 2) * 5000 + 1 * (y 0).val = (i 0).val; rw [e0, h0]; omega
  | ⟨1, _⟩ => show win0_1.index t (1 : Fin 2) * 64 + 1 * (y 1).val = (i 1).val; rw [e1, h1]; omega

/-- The block of W1 at any point is W1. -/
theorem iblk_w (t : Fin cfg0.N) (y : S64x128.Idx) : (iblk0 V c 2 t : S64x128.Idx → EReal) y = arrW V c y := by
  obtain ⟨-, -, -, -, e0, e1, -⟩ := idx_facts t
  unfold iblk0
  rw [View.read_apply]
  show (V c (Pipeline.arrRef spec0 2) : S64x128.Idx → EReal) _ = (V c (Pipeline.arrRef spec0 2) : S64x128.Idx → EReal) y
  refine congrArg _ ?_
  funext a; apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- The block of b1 at any point is b1. -/
theorem iblk_b (t : Fin cfg0.N) (y : S1x128.Idx) : (iblk0 V c 3 t : S1x128.Idx → EReal) y = arrB V c y := by
  obtain ⟨-, -, -, -, -, -, e0, e1, -⟩ := idx_facts t
  unfold iblk0
  rw [View.read_apply]
  show (V c (Pipeline.arrRef spec0 3) : S1x128.Idx → EReal) _ = (V c (Pipeline.arrRef spec0 3) : S1x128.Idx → EReal) y
  refine congrArg _ ?_
  funext a; apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The affine payload of point t's blocks at entry (b, j) is the first layer at row 5000·t + b. -/
theorem block_z (t : Fin cfg0.N) (b : Fin 5000) (j : Fin 128) (i : Fin 100000) (hi : i.val = 5000 * t.val + b.val) :
    k0_pay3 (F := Ideal) (iblk0 V c 0 t) (iblk0 V c 1 t) (iblk0 V c 2 t) (iblk0 V c 3 t) (ix2 b j) = zOf V c i j := by
  refine (pay3_apply (iblk0 V c 0 t) (iblk0 V c 1 t) (iblk0 V c 2 t) (iblk0 V c 3 t) b j).trans ?_
  unfold zOf Cert.Spec.lin
  refine congrArg₂ (· + ·) (Finset.sum_congr rfl fun k _ => ?_) ?_
  · exact congrArg₂ (· * ·)
      (congrArg₂ (· + ·) (iblk_x V c t (ix2 b k) (ix2 i k) hi rfl) (iblk_agg V c t (ix2 b k) (ix2 i k) hi rfl))
      (iblk_w V c t (ix2 k j))
  · exact iblk_b V c t (ix2 0 j)

end Cert.KernelIdeal.Region0

end
-- ==== Proof.KerRegion0Sum.lean ====
/-
  A sum over the 100000 rows is the sum, over the 20 row blocks in order, of the sums over each block's 5000 rows.
  Row b of block t is row 5000·t + b. Addition of extended reals is commutative and associative, so no side condition
  is needed.
-/
import Idealize.ShloMosaic.PureOps.Ideal

noncomputable section

open scoped BigOperators

namespace Cert.KernelIdeal.Region0

/-- Row `b` of row block `t`. -/
def rowAt (t : Fin 20) (b : Fin 5000) : Fin 100000 :=
  ⟨5000 * t.val + b.val, by have := t.isLt; have := b.isLt; omega⟩

theorem rowAt_val (t : Fin 20) (b : Fin 5000) : (rowAt t b).val = 5000 * t.val + b.val := rfl

/-- The sum of `f` over the rows of block `p` (zero past the last block). -/
def blockSum (f : Fin 100000 → EReal) (p : ℕ) : EReal :=
  if h : p < 20 then ∑ b : Fin 5000, f (rowAt ⟨p, h⟩ b) else 0

theorem blockSum_of_lt (f : Fin 100000 → EReal) (p : ℕ) (h : p < 20) :
    blockSum f p = ∑ b : Fin 5000, f (rowAt ⟨p, h⟩ b) := dif_pos h

/-- A row is a block and a row inside the block. -/
def blockEquiv : Fin 20 × Fin 5000 ≃ Fin 100000 :=
  finProdFinEquiv.trans (finCongr (by norm_num))

/-- The 20 block sums add up to the sum over all rows. -/
theorem sum_blocks (f : Fin 100000 → EReal) : ∑ p ∈ Finset.range 20, blockSum f p = ∑ i : Fin 100000, f i := by
  rw [← Fin.sum_univ_eq_sum_range (blockSum f) 20]
  calc ∑ t : Fin 20, blockSum f t.val
      = ∑ t : Fin 20, ∑ b : Fin 5000, f (rowAt t b) :=
        Finset.sum_congr rfl fun t _ => blockSum_of_lt f t.val t.isLt
    _ = ∑ x : Fin 20 × Fin 5000, f (rowAt x.1 x.2) := (Fintype.sum_prod_type (fun x : Fin 20 × Fin 5000 => f (rowAt x.1 x.2))).symm
    _ = ∑ x : Fin 20 × Fin 5000, f (blockEquiv x) :=
        Finset.sum_congr rfl fun x _ => congrArg f (Fin.ext (by
          show 5000 * x.1.val + x.2.val = x.2.val + 5000 * x.1.val
          omega))
    _ = ∑ i : Fin 100000, f i := Equiv.sum_comp blockEquiv f

end Cert.KernelIdeal.Region0

end
-- ==== Proof.KerRegion0Inv.lean ====
/-
  What the three output buffers hold after each grid point, as values.

  The first buffer holds the affine layer of the point's row block, whichever control case the point is in. The two
  accumulator rows hold running sums: after point n, at column j, the zero the first point stored plus the sums, over
  the blocks 0 … n in order, of the block's 5000 entries of column j of the first layer (respectively of their
  squares) — by induction on the point: the first point resets and adds its block, a later point adds its block to
  what the point before left.
-/
import proofs.«127043_j56727928046274_1_alg».proof.Proof.KerRegion0Pieces
import proofs.«127043_j56727928046274_1_alg».proof.Proof.KerRegion0Blocks
import proofs.«127043_j56727928046274_1_alg».proof.Proof.KerRegion0Sum

noncomputable section

open scoped BigOperators
open Idealize.ShloMosaic Idealize.ShloMosaic.TcCoe Idealize.SL.Sem Idealize.ShloMosaic.ValueIdx

namespace Cert.KernelIdeal.Region0

open Cert.KernelIdeal Cert.KernelIdeal.Gen

variable (V : (c : Dev nD) → (b : Ref sig .tc) → Buf (Elt Ideal) ((c : Thread nD τ).loc b)) (c : Dev nD)

/-- After any point the first output buffer holds the affine payload of the point's blocks. -/
theorem out4_eq (t : Fin cfg0.N) :
    (outsAt0 V c t.val t.isLt).1 = k0_pay3 (F := Ideal) (iblk0 V c 0 t) (iblk0 V c 1 t) (iblk0 V c 2 t) (iblk0 V c 3 t) := by
  by_cases h0 : t.val % 20 = 0
  · rw [outsAt0_A V c t h0]
    dsimp only
    exact outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun hc => h0 ((hcond0_0 t).mp hc)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- The accumulator of sums after point n: the zero, plus the first layer's column j summed over the rows of blocks 0 … n. -/
theorem acc5_eq : ∀ (n : ℕ) (h : n < cfg0.N) (j : Fin 128),
    (outsAt0 V c n h).2.1 (ix2 0 j) = Cert.Spec.zero + ∑ p ∈ Finset.range (n + 1), blockSum (fun i => zOf V c i j) p
  | 0, h, j => by
    have hA : (⟨0, h⟩ : Fin cfg0.N).val % 20 = 0 := rfl
    rw [outsAt0_A V c ⟨0, h⟩ hA]
    dsimp only
    refine (congrFun (outA5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr hA) (iblk0 V c 0 ⟨0, h⟩) (iblk0 V c 1 ⟨0, h⟩) (iblk0 V c 2 ⟨0, h⟩) (iblk0 V c 3 ⟨0, h⟩)) (ix2 0 j)).trans ?_
    refine (pay4_apply (iblk0 V c 0 ⟨0, h⟩) (iblk0 V c 1 ⟨0, h⟩) (iblk0 V c 2 ⟨0, h⟩) (iblk0 V c 3 ⟨0, h⟩) _ j).trans ?_
    rw [Finset.sum_range_succ, Finset.sum_range_zero, zero_add, blockSum_of_lt _ 0 (by norm_num)]
    refine congrArg₂ (· + ·) (pay1_apply _) (Finset.sum_congr rfl fun b _ => ?_)
    rw [block_z V c ⟨0, h⟩ b j (rowAt ⟨0, by norm_num⟩ b) rfl]
  | n + 1, h, j => by
    have hN : cfg0.N = 20 := N_0
    have hn : n + 1 < 20 := by omega
    have hB : ¬(⟨n + 1, h⟩ : Fin cfg0.N).val % 20 = 0 := by dsimp only; omega
    have hsum : Cert.Spec.zero + ∑ p ∈ Finset.range (n + 1 + 1), blockSum (fun i => zOf V c i j) p
        = (Cert.Spec.zero + ∑ p ∈ Finset.range (n + 1), blockSum (fun i => zOf V c i j) p)
          + ∑ b : Fin 5000, (fun i => zOf V c i j) (rowAt ⟨n + 1, hn⟩ b) := by
      rw [Finset.sum_range_succ, ← add_assoc, blockSum_of_lt _ (n + 1) hn]
    rw [hsum, outsAt0_B V c ⟨n + 1, h⟩ hB]
    dsimp only
    refine (congrFun (outB5 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (fun hc => hB ((hcond0_0 (⟨n + 1, h⟩ : Fin cfg0.N)).mp hc)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2) (ix2 0 j)).trans ?_
    refine (pay4_apply (iblk0 V c 0 ⟨n + 1, h⟩) (iblk0 V c 1 ⟨n + 1, h⟩) (iblk0 V c 2 ⟨n + 1, h⟩) (iblk0 V c 3 ⟨n + 1, h⟩) _ j).trans ?_
    refine congrArg₂ (· + ·) (acc5_eq n _ j) (Finset.sum_congr rfl fun b _ => ?_)
    rw [block_z V c ⟨n + 1, h⟩ b j (rowAt ⟨n + 1, hn⟩ b) rfl]

/-- The accumulator of squares after point n: the zero, plus the squares of the first layer's column j summed over the rows of blocks 0 … n. -/
theorem acc6_eq : ∀ (n : ℕ) (h : n < cfg0.N) (j : Fin 128),
    (outsAt0 V c n h).2.2 (ix2 0 j) = Cert.Spec.zero + ∑ p ∈ Finset.range (n + 1), blockSum (fun i => zOf V c i j * zOf V c i j) p
  | 0, h, j => by
    have hA : (⟨0, h⟩ : Fin cfg0.N).val % 20 = 0 := rfl
    rw [outsAt0_A V c ⟨0, h⟩ hA]
    dsimp only
    refine (congrFun (outA6 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr hA) (iblk0 V c 0 ⟨0, h⟩) (iblk0 V c 1 ⟨0, h⟩) (iblk0 V c 2 ⟨0, h⟩) (iblk0 V c 3 ⟨0, h⟩)) (ix2 0 j)).trans ?_
    refine (pay5_apply (iblk0 V c 0 ⟨0, h⟩) (iblk0 V c 1 ⟨0, h⟩) (iblk0 V c 2 ⟨0, h⟩) (iblk0 V c 3 ⟨0, h⟩) _ j).trans ?_
    rw [Finset.sum_range_succ, Finset.sum_range_zero, zero_add, blockSum_of_lt _ 0 (by norm_num)]
    refine congrArg₂ (· + ·) (pay2_apply _) (Finset.sum_congr rfl fun b _ => ?_)
    rw [block_z V c ⟨0, h⟩ b j (rowAt ⟨0, by norm_num⟩ b) rfl]
  | n + 1, h, j => by
    have hN : cfg0.N = 20 := N_0
    have hn : n + 1 < 20 := by omega
    have hB : ¬(⟨n + 1, h⟩ : Fin cfg0.N).val % 20 = 0 := by dsimp only; omega
    have hsum : Cert.Spec.zero + ∑ p ∈ Finset.range (n + 1 + 1), blockSum (fun i => zOf V c i j * zOf V c i j) p
        = (Cert.Spec.zero + ∑ p ∈ Finset.range (n + 1), blockSum (fun i => zOf V c i j * zOf V c i j) p)
          + ∑ b : Fin 5000, (fun i => zOf V c i j * zOf V c i j) (rowAt ⟨n + 1, hn⟩ b) := by
      rw [Finset.sum_range_succ, ← add_assoc, blockSum_of_lt _ (n + 1) hn]
    rw [hsum, outsAt0_B V c ⟨n + 1, h⟩ hB]
    dsimp only
    refine (congrFun (outB6 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (fun hc => hB ((hcond0_0 (⟨n + 1, h⟩ : Fin cfg0.N)).mp hc)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2) (ix2 0 j)).trans ?_
    refine (pay5_apply (iblk0 V c 0 ⟨n + 1, h⟩) (iblk0 V c 1 ⟨n + 1, h⟩) (iblk0 V c 2 ⟨n + 1, h⟩) (iblk0 V c 3 ⟨n + 1, h⟩) _ j).trans ?_
    refine congrArg₂ (· + ·) (acc6_eq n _ j) (Finset.sum_congr rfl fun b _ => ?_)
    rw [block_z V c ⟨n + 1, h⟩ b j (rowAt ⟨n + 1, hn⟩ b) rfl]

end Cert.KernelIdeal.Region0

end
-- ==== Proof.KerRegion0.lean ====
/-
  What the first region leaves in its three output arrays.

  The first output array is written back block by block: point t writes rows 5000·t … 5000·t + 4999, the blocks tile
  the array, and every block is the first layer read at its rows, so the array ends holding the first layer. The two
  accumulator rows are written back once, after the last point, and then hold the running sums over all 20 blocks:
  the column sums of the first layer, and of its squares, over all 100000 rows (the zero the first point stored adds
  nothing).
-/
import proofs.«127043_j56727928046274_1_alg».proof.Proof.KerRegion0Inv

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b)) (c : Dev nD)

/-! ## The first output array -/

/-- The first layer as the contents of a 100000×128 array. -/
def G4 : S100000x128.Idx → EReal := fun i => zOf V c (i 0) (i 1)

/-- The affine payload of point t's blocks, at an entry of the block, is the first layer at the array entry the
    block's entry sits at. -/
theorem pay3_block (t : Fin cfg0.N) (y : S5000x128.Idx) (i : S100000x128.Idx)
    (h0 : (i 0).val = 5000 * t.val + (y 0).val) (h1 : (i 1).val = (y 1).val) :
    k0_pay3 (F := Ideal) (iblk0 V c 0 t) (iblk0 V c 1 t) (iblk0 V c 2 t) (iblk0 V c 3 t) y = G4 V c i := by
  obtain ⟨b, j, rfl⟩ : ∃ (b : Fin 5000) (j : Fin 128), y = ix2 b j := ⟨y 0, y 1, eq_ix2 y⟩
  unfold G4
  exact (block_z V c t b j (i 0) h0).trans (congrArg (zOf V c (i 0)) (Fin.ext h1.symm))

/-- What point t writes back is block t of the first layer. -/
theorem flushed4_eq (t : Fin cfg0.N) :
    (dat0 V c).flushed 4 t = ((cfg0.win 4).blk t).view.read (Elt Ideal) (G4 V c) := by
  obtain ⟨-, -, -, -, -, -, -, -, e0, e1, -⟩ := idx_facts t
  show (cfg0.win 4).cut (grid0.coords t) ((dat0 V c).after 4 t) = _
  rw [after0_4, out4_eq V c t]
  refine funext fun (y : S5000x128.Idx) => ?_
  rw [View.read_apply]
  refine pay3_block V c t y (((cfg0.win 4).blk t).view.emb y) ?_ ?_
  · show win0_4.index t (0 : Fin 2) * 5000 + 1 * (y 0).val = 5000 * t.val + (y 0).val
    rw [e0]; omega
  · show win0_4.index t (1 : Fin 2) * 128 + 1 * (y 1).val = (y 1).val
    rw [e1]; omega

/-- An entry of the array is in point t's block iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v18_0).slice (win0_4.rect t)).set ↔ _
  rw [View.set_slice_whole, Rect.mem_set_unit]
  exact Iff.rfl

/-- Every row is in the block of the point its number divided by 5000 names. -/
theorem cover4 (i : S100000x128.Idx) :
    ∃ t : Fin cfg0.N, (cfg0.win 4).flush t = true ∧ i ∈ ((cfg0.win 4).blk t).view.set := by
  have hN : cfg0.N = 20 := N_0
  have h0 : (i 0).val < 100000 := idx2_lt0 i
  have h1 : (i 1).val < 128 := idx2_lt1 i
  have ht : (i 0).val / 5000 < cfg0.N := by rw [hN]; omega
  obtain ⟨-, -, -, -, -, -, -, -, e0, e1, -⟩ := idx_facts ⟨(i 0).val / 5000, ht⟩
  refine ⟨⟨(i 0).val / 5000, ht⟩, flush0_4 _, ?_⟩
  rw [mem_blk4]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e1]; omega

/-- So the first output array ends holding the first layer. -/
theorem final4 : (dat0 V c).arrAt 4 cfg0.N = G4 V c :=
  (dat0 V c).arrAt_eq_of_cover 4 (G4 V c) (fun t _ => flushed4_eq V c t) cover4

/-- The first output array after the region, entry by entry: the first layer. -/
theorem z_final (i : Fin 100000) (j : Fin 128) : (dat0 (F := Ideal) V c).arrAt 4 cfg0.N (ix2 i j) = zOf V c i j :=
  congrFun (final4 V c) (ix2 i j)

/-! ## The two accumulator rows -/

/-- The last grid point. -/
abbrev tLast : Fin cfg0.N := ⟨19, by decide⟩

/-- What the accumulator of sums holds after the last point. -/
def G5 : S1x128.Idx → EReal := (dat0 V c).after 5 tLast

/-- The one write-back of this row, after the last point, writes it: the row's block is the whole 1×128 array. -/
theorem flushed5_eq (t : Fin cfg0.N) (hf : (cfg0.win 5).flush t = true) :
    (dat0 V c).flushed 5 t = ((cfg0.win 5).blk t).view.read (Elt Ideal) (G5 V c) := by
  have hN : cfg0.N = 20 := N_0
  have h19 : t.val = 19 := by have := (flush0_5 t).mp hf; have := t.isLt; omega
  obtain rfl : t = tLast := Fin.ext h19
  obtain ⟨-, -, -, -, -, -, -, -, -, -, e0, e1, -⟩ := idx_facts tLast
  show (cfg0.win 5).cut (grid0.coords tLast) ((dat0 V c).after 5 tLast) = _
  refine funext fun (y : S1x128.Idx) => ?_
  rw [View.read_apply]
  show G5 V c y = G5 V c (((cfg0.win 5).blk tLast).view.emb y)
  refine congrArg (G5 V c) ?_
  funext a; apply Fin.ext
  match a with
  | ⟨0, _⟩ => show (y 0).val = win0_5.index tLast (0 : Fin 2) * 1 + 1 * (y 0).val; rw [e0]; omega
  | ⟨1, _⟩ => show (y 1).val = win0_5.index tLast (1 : Fin 2) * 128 + 1 * (y 1).val; rw [e1]; omega

/-- The last point's block covers the row. -/
theorem cover5 (i : S1x128.Idx) :
    ∃ t : Fin cfg0.N, (cfg0.win 5).flush t = true ∧ i ∈ ((cfg0.win 5).blk t).view.set := by
  obtain ⟨-, -, -, -, -, -, -, -, -, -, e0, e1, -⟩ := idx_facts tLast
  refine ⟨tLast, (flush0_5 tLast).mpr rfl, ?_⟩
  show i ∈ ((View.whole main_v18_1).slice (win0_5.rect tLast)).set
  rw [View.set_slice_whole, Rect.mem_set_unit]
  intro a
  have h0 : (i 0).val < 1 := idx2_lt0 i
  have h1 : (i 1).val < 128 := idx2_lt1 i
  match a with
  | ⟨0, _⟩ =>
    show win0_5.index tLast (0 : Fin 2) * 1 ≤ (i 0).val ∧ (i 0).val < win0_5.index tLast (0 : Fin 2) * 1 + 1
    rw [e0]; omega
  | ⟨1, _⟩ =>
    show win0_5.index tLast (1 : Fin 2) * 128 ≤ (i 1).val ∧ (i 1).val < win0_5.index tLast (1 : Fin 2) * 128 + 128
    rw [e1]; omega

/-- So the row ends holding what the last point left. -/
theorem final5 : (dat0 V c).arrAt 5 cfg0.N = G5 V c :=
  (dat0 V c).arrAt_eq_of_cover 5 (G5 V c) (flushed5_eq V c) (cover5)

/-- What the accumulator of squares holds after the last point. -/
def G6 : S1x128.Idx → EReal := (dat0 V c).after 6 tLast

/-- The one write-back of this row, after the last point, writes it: the row's block is the whole 1×128 array. -/
theorem flushed6_eq (t : Fin cfg0.N) (hf : (cfg0.win 6).flush t = true) :
    (dat0 V c).flushed 6 t = ((cfg0.win 6).blk t).view.read (Elt Ideal) (G6 V c) := by
  have hN : cfg0.N = 20 := N_0
  have h19 : t.val = 19 := by have := (flush0_6 t).mp hf; have := t.isLt; omega
  obtain rfl : t = tLast := Fin.ext h19
  obtain ⟨-, -, -, -, -, -, -, -, -, -, -, -, e0, e1⟩ := idx_facts tLast
  show (cfg0.win 6).cut (grid0.coords tLast) ((dat0 V c).after 6 tLast) = _
  refine funext fun (y : S1x128.Idx) => ?_
  rw [View.read_apply]
  show G6 V c y = G6 V c (((cfg0.win 6).blk tLast).view.emb y)
  refine congrArg (G6 V c) ?_
  funext a; apply Fin.ext
  match a with
  | ⟨0, _⟩ => show (y 0).val = win0_6.index tLast (0 : Fin 2) * 1 + 1 * (y 0).val; rw [e0]; omega
  | ⟨1, _⟩ => show (y 1).val = win0_6.index tLast (1 : Fin 2) * 128 + 1 * (y 1).val; rw [e1]; omega

/-- The last point's block covers the row. -/
theorem cover6 (i : S1x128.Idx) :
    ∃ t : Fin cfg0.N, (cfg0.win 6).flush t = true ∧ i ∈ ((cfg0.win 6).blk t).view.set := by
  obtain ⟨-, -, -, -, -, -, -, -, -, -, -, -, e0, e1⟩ := idx_facts tLast
  refine ⟨tLast, (flush0_6 tLast).mpr rfl, ?_⟩
  show i ∈ ((View.whole main_v18_2).slice (win0_6.rect tLast)).set
  rw [View.set_slice_whole, Rect.mem_set_unit]
  intro a
  have h0 : (i 0).val < 1 := idx2_lt0 i
  have h1 : (i 1).val < 128 := idx2_lt1 i
  match a with
  | ⟨0, _⟩ =>
    show win0_6.index tLast (0 : Fin 2) * 1 ≤ (i 0).val ∧ (i 0).val < win0_6.index tLast (0 : Fin 2) * 1 + 1
    rw [e0]; omega
  | ⟨1, _⟩ =>
    show win0_6.index tLast (1 : Fin 2) * 128 ≤ (i 1).val ∧ (i 1).val < win0_6.index tLast (1 : Fin 2) * 128 + 128
    rw [e1]; omega

/-- So the row ends holding what the last point left. -/
theorem final6 : (dat0 V c).arrAt 6 cfg0.N = G6 V c :=
  (dat0 V c).arrAt_eq_of_cover 6 (G6 V c) (flushed6_eq V c) (cover6)
/-- The accumulator of sums after the region, column by column: the column sums of the first layer. -/
theorem sum_final (j : Fin 128) :
    (dat0 (F := Ideal) V c).arrAt 5 cfg0.N (ix2 0 j) = Cert.Spec.colSum (zOf V c) j := by
  refine (congrFun (final5 V c) (ix2 0 j)).trans ?_
  unfold G5
  rw [after0_5]
  refine (acc5_eq V c tLast.val tLast.isLt j).trans ?_
  show Cert.Spec.zero + ∑ p ∈ Finset.range 20, blockSum (fun i => zOf V c i j) p = _
  rw [sum_blocks, Cert.Spec.zero_eq, zero_add]
  rfl

/-- The accumulator of squares after the region, column by column: the column sums of the first layer's squares. -/
theorem sumsq_final (j : Fin 128) :
    (dat0 (F := Ideal) V c).arrAt 6 cfg0.N (ix2 0 j) = Cert.Spec.colSumSq (zOf V c) j := by
  refine (congrFun (final6 V c) (ix2 0 j)).trans ?_
  unfold G6
  rw [after0_6]
  refine (acc6_eq V c tLast.val tLast.isLt j).trans ?_
  show Cert.Spec.zero + ∑ p ∈ Finset.range 20, blockSum (fun i => zOf V c i j * zOf V c i j) p = _
  rw [sum_blocks, Cert.Spec.zero_eq, zero_add]
  rfl

end Cert.KernelIdeal.Region0

end
-- ==== Proof.KerResult.lean ====
/-
  The idealized kernel's result as one function of its eight arguments.

  Row i of the first layer is the feature row plus the neighbour aggregate's row, against the first weight matrix, plus
  the first bias.  The statistics are the column means and the variances spelt "mean of squares minus square of mean".
  The result is the specification's second layer of those.
-/
import proofs.«127043_j56727928046274_1_alg».proof.Proof.KerHost0
import proofs.«127043_j56727928046274_1_alg».proof.Proof.Spec

noncomputable section

namespace Cert.KernelIdeal.KerValue

open Cert.KernelIdeal Idealize.ShloMosaic Idealize.ShloMosaic.ValueIdx

/-- Entry (i, j) of the first layer before normalisation. -/
def zOf (x : FVec Ideal S100000x64 .f32) (ei : IVec S2x1250000 32) (W1 : FVec Ideal S64x128 .f32) (b1 : FVec Ideal S128 .f32)
    (i : Fin 100000) (j : Fin 128) : EReal :=
  Cert.Spec.lin (fun k : Fin 64 => x (ix2 i k) + KerHost.agg x ei (ix2 i k)) (fun k j => W1 (ix2 k j)) (fun j => b1 (ix1 j)) j

/-- The kernel's result, entry by entry. -/
def result (x : FVec Ideal S100000x64 .f32) (ei : IVec S2x1250000 32) (W1 : FVec Ideal S64x128 .f32)
    (b1 gamma beta : FVec Ideal S128 .f32) (W2 : FVec Ideal S128x128 .f32) (b2 : FVec Ideal S128 .f32) :
    FVec Ideal S100000x128 .f32 := fun idx =>
  Cert.Spec.tail (fun k => zOf x ei W1 b1 (idx 0 : Fin 100000) k) (Cert.Spec.mean (zOf x ei W1 b1)) (Cert.Spec.varK (zOf x ei W1 b1))
    (fun k => gamma (ix1 k)) (fun k => beta (ix1 k)) (fun k j => W2 (ix2 k j)) (fun k => b2 (ix1 k)) (idx 1 : Fin 128)

end Cert.KernelIdeal.KerValue

end
-- ==== Proof.KerValue2.lean ====
/-
  The idealized kernel's result is `result` of the launched arguments.

  The first region's three output arrays are, entry by entry, the first layer of the arrays the region finds, its
  column sums and its column sums of squares; the arrays it finds are the launched features, the neighbour aggregate of
  the launched features and edge table, the launched first weight matrix and the first bias as a row.  Put into the
  second region's reading, the quotients of the two accumulated rows by the row count are the column means and the
  "mean of squares minus square of mean" variances of that first layer.
-/
import proofs.«127043_j56727928046274_1_alg».proof.Proof.KerValue1
import proofs.«127043_j56727928046274_1_alg».proof.Proof.KerRegion0
import proofs.«127043_j56727928046274_1_alg».proof.Proof.KerResult

noncomputable section

namespace Cert.KernelIdeal.KerValue

open Cert.KernelIdeal Cert.KernelIdeal.Gen Cert.KernelIdeal.KerHost
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The first layer of the arrays the first region finds is the first layer of the launched arguments. -/
theorem zOf_entry (c : Dev nD) :
    Region0.zOf (V1 m ρ) c = zOf (m ((c.tc : Thread nD τ).loc main_arg0)) (m ((c.tc : Thread nD τ).loc main_arg1)) (m ((c.tc : Thread nD τ).loc main_arg2)) (m ((c.tc : Thread nD τ).loc main_arg3)) := by
  have hx : Region0.arrX (V1 m ρ) c = m ((c.tc : Thread nD τ).loc main_arg0) := entry0_x m ρ c
  have ha : Region0.arrAgg (V1 m ρ) c = agg (m ((c.tc : Thread nD τ).loc main_arg0)) (m ((c.tc : Thread nD τ).loc main_arg1)) := entry0_agg m ρ c
  have hw : Region0.arrW (V1 m ρ) c = m ((c.tc : Thread nD τ).loc main_arg2) := entry0_W1 m ρ c
  have hb : (fun j : Fin 128 => Region0.arrB (V1 m ρ) c (ix2 (0 : Fin 1) j))
      = fun j => (m ((c.tc : Thread nD τ).loc main_arg3) : S128.Idx → EReal) (ix1 j) := funext fun j => by
    rw [show Region0.arrB (V1 m ρ) c = _ from entry0_b1 m ρ c]
    exact shapeCast_a_1a_apply _ _ 0 j
  funext i j
  unfold Region0.zOf zOf
  rw [hx, ha, hw, hb]

/-- The result buffer's final contents are `result` of the launched arguments. -/
theorem value (c : Dev nD) : (W4 m ρ c (Proc.devRef .tc main_v25) : S100000x128.Idx → EReal)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext idx
  obtain ⟨i, j, rfl⟩ : ∃ (i : Fin 100000) (j : Fin 128), idx = ix2 i j := ⟨idx 0, idx 1, eq_ix2 idx⟩
  have h1 : (fun k : Fin 128 => zArr m ρ c (ix2 i k))
      = fun k => zOf (m ((c.tc : Thread nD τ).loc main_arg0)) (m ((c.tc : Thread nD τ).loc main_arg1)) (m ((c.tc : Thread nD τ).loc main_arg2)) (m ((c.tc : Thread nD τ).loc main_arg3)) i k :=
    funext fun k => (Region0.z_final (V1 m ρ) c i k).trans (congrFun (congrFun (zOf_entry m ρ c) i) k)
  have h2 : (fun k : Fin 128 => Ideal.div (sumRow m ρ c (ix2 (0 : Fin 1) k)) Cert.Spec.nrows)
      = Cert.Spec.mean (zOf (m ((c.tc : Thread nD τ).loc main_arg0)) (m ((c.tc : Thread nD τ).loc main_arg1)) (m ((c.tc : Thread nD τ).loc main_arg2)) (m ((c.tc : Thread nD τ).loc main_arg3))) :=
    funext fun k => by
      unfold Cert.Spec.mean
      rw [show sumRow m ρ c (ix2 (0 : Fin 1) k) = _ from Region0.sum_final (V1 m ρ) c k, zOf_entry]
  have h3 : (fun k : Fin 128 => Ideal.div (sumSqRow m ρ c (ix2 (0 : Fin 1) k)) Cert.Spec.nrows
            - Ideal.div (sumRow m ρ c (ix2 (0 : Fin 1) k)) Cert.Spec.nrows
              * Ideal.div (sumRow m ρ c (ix2 (0 : Fin 1) k)) Cert.Spec.nrows)
      = Cert.Spec.varK (zOf (m ((c.tc : Thread nD τ).loc main_arg0)) (m ((c.tc : Thread nD τ).loc main_arg1)) (m ((c.tc : Thread nD τ).loc main_arg2)) (m ((c.tc : Thread nD τ).loc main_arg3))) :=
    funext fun k => by
      unfold Cert.Spec.varK Cert.Spec.mean
      rw [show sumSqRow m ρ c (ix2 (0 : Fin 1) k) = _ from Region0.sumsq_final (V1 m ρ) c k,
        show sumRow m ρ c (ix2 (0 : Fin 1) k) = _ from Region0.sum_final (V1 m ρ) c k, zOf_entry]
  rw [result_apply, h1, h2, h3]
  rfl

end Cert.KernelIdeal.KerValue

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.RefRun.lean ====
/-
  The reference program's run, read back as a fold.

  The reference computes, for a graph with 100000 nodes and 1250000 edges, one message-passing layer followed by a
  two-layer perceptron with batch normalisation.  Its @main is a straight line of array operations: it has no kernel.
  Three of its steps are calls of outlined functions (the batch variance, which itself calls a "where", and the
  clamp-at-zero, called twice); a call executes the callee's body on the operands, so the whole program is ONE
  straight line of 76 operations once each callee's operations are written at its call site over that call's buffers.

  This module lists that line (`ops`), shows that @main is exactly that line run in order (`main_eq`), and concludes
  that every weakly fair execution ends with each buffer holding the fold of the operations' results over the
  launch contents (`run_all`).  The line is also given as four consecutive stretches (`opsA … opsD`): the first
  layer's pre-activation, its column means, its column variances, and the normalised second layer; the fold over the
  whole line is then the four folds in turn.
-/
import proofs.«127043_j56727928046274_1_alg».proof.Proof.Gen.ReferenceIdeal
import proofs.«127043_j56727928046274_1_alg».proof.Proof.LibFoldStretch
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first stretch (22 operations): the two rows of the edge table, the wrap of negative source rows, the gather of
    the source rows of `x`, their accumulation at the destination rows, the sum with `x`, the product with the first
    weight matrix and the bias. -/
abbrev opsA : List (HloOp τ sig (Elt F)) :=
  [ StableHlo.unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    StableHlo.reshape main_v0 main_v1 rfl shapeCasts_S1x1250000_S1250000,
    StableHlo.unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    StableHlo.reshape main_v2 main_v3 rfl shapeCasts_S1x1250000_S1250000,
    StableHlo.nullary main_c (constantI S_ 32 0#32),
    StableHlo.unary main_c main_v4 (broadcastInDim S1250000 ![] bcast_S_S1250000 : (⟨S_, .i32⟩ : BufTy).Contents (Elt F) → (⟨S1250000, .i32⟩ : BufTy).Contents (Elt F)),
    StableHlo.binary main_v1 main_v4 main_v5 (cmpi .slt : (⟨S1250000, .i32⟩ : BufTy).Contents (Elt F) → (⟨S1250000, .i32⟩ : BufTy).Contents (Elt F) → (⟨S1250000, .i1⟩ : BufTy).Contents (Elt F)),
    StableHlo.nullary main_c_0 (constantI S_ 32 100000#32),
    StableHlo.unary main_c_0 main_v6 (broadcastInDim S1250000 ![] bcast_S_S1250000 : (⟨S_, .i32⟩ : BufTy).Contents (Elt F) → (⟨S1250000, .i32⟩ : BufTy).Contents (Elt F)),
    StableHlo.binary main_v1 main_v6 main_v7 (addi : (⟨S1250000, .i32⟩ : BufTy).Contents (Elt F) → (⟨S1250000, .i32⟩ : BufTy).Contents (Elt F) → (⟨S1250000, .i32⟩ : BufTy).Contents (Elt F)),
    StableHlo.ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v8 main_v9 (broadcastInDim S1250000x1 ![0] bcast_S1250000_S1250000x1_0 : (⟨S1250000, .i32⟩ : BufTy).Contents (Elt F) → (⟨S1250000x1, .i32⟩ : BufTy).Contents (Elt F)),
    StableHlo.binary main_arg0 main_v9 main_v10 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1250000x1 ![0] bcast_S1250000_S1250000x1_0 : (⟨S1250000, .i32⟩ : BufTy).Contents (Elt F) → (⟨S1250000x1, .i32⟩ : BufTy).Contents (Elt F)),
    StableHlo.ternary main_v11 main_v12 main_v10 main_v13 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)) ]

/-- The second stretch (6 operations): the column sums of the pre-activation and their quotient by the row count,
    and the integer zero the variance is called with. -/
abbrev opsB : List (HloOp τ sig (Elt F)) :=
  [ StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32) ]

/-- The third stretch (22 operations): the called variance — its own column means, the deviations, their squares,
    the column sums of those, the divisor "row count minus the integer argument", the quotient, and the called
    selection that keeps the quotient where the divisor is positive. -/
abbrev opsC : List (HloOp τ sig (Elt F)) :=
  [ StableHlo.TRef.nullary main_call0.cst (constant S_ .f32 0x00000000#32),
    StableHlo.TRef.binary (.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v18 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The fourth stretch (26 operations): centring, the reciprocal root of variance plus epsilon, scale and shift, the
    first clamp at zero, the product with the second weight matrix, the bias, the second clamp. -/
abbrev opsD : List (HloOp τ sig (Elt F)) :=
  [ StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v37 : StableHlo.TRef sig ⟨S100000x128, .f32⟩) main_call1.v0 main_call1.v1 maximumf,
    StableHlo.binary main_v38 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v42 : StableHlo.TRef sig ⟨S100000x128, .f32⟩) main_call2.v0 main_call2.v1 maximumf ]

/-- @main's 76 operations, in order, the calls unfolded. -/
abbrev ops : List (HloOp τ sig (Elt F)) :=
  [ StableHlo.unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    StableHlo.reshape main_v0 main_v1 rfl shapeCasts_S1x1250000_S1250000,
    StableHlo.unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    StableHlo.reshape main_v2 main_v3 rfl shapeCasts_S1x1250000_S1250000,
    StableHlo.nullary main_c (constantI S_ 32 0#32),
    StableHlo.unary main_c main_v4 (broadcastInDim S1250000 ![] bcast_S_S1250000 : (⟨S_, .i32⟩ : BufTy).Contents (Elt F) → (⟨S1250000, .i32⟩ : BufTy).Contents (Elt F)),
    StableHlo.binary main_v1 main_v4 main_v5 (cmpi .slt : (⟨S1250000, .i32⟩ : BufTy).Contents (Elt F) → (⟨S1250000, .i32⟩ : BufTy).Contents (Elt F) → (⟨S1250000, .i1⟩ : BufTy).Contents (Elt F)),
    StableHlo.nullary main_c_0 (constantI S_ 32 100000#32),
    StableHlo.unary main_c_0 main_v6 (broadcastInDim S1250000 ![] bcast_S_S1250000 : (⟨S_, .i32⟩ : BufTy).Contents (Elt F) → (⟨S1250000, .i32⟩ : BufTy).Contents (Elt F)),
    StableHlo.binary main_v1 main_v6 main_v7 (addi : (⟨S1250000, .i32⟩ : BufTy).Contents (Elt F) → (⟨S1250000, .i32⟩ : BufTy).Contents (Elt F) → (⟨S1250000, .i32⟩ : BufTy).Contents (Elt F)),
    StableHlo.ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v8 main_v9 (broadcastInDim S1250000x1 ![0] bcast_S1250000_S1250000x1_0 : (⟨S1250000, .i32⟩ : BufTy).Contents (Elt F) → (⟨S1250000x1, .i32⟩ : BufTy).Contents (Elt F)),
    StableHlo.binary main_arg0 main_v9 main_v10 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1250000x1 ![0] bcast_S1250000_S1250000x1_0 : (⟨S1250000, .i32⟩ : BufTy).Contents (Elt F) → (⟨S1250000x1, .i32⟩ : BufTy).Contents (Elt F)),
    StableHlo.ternary main_v11 main_v12 main_v10 main_v13 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v18 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v37 : StableHlo.TRef sig ⟨S100000x128, .f32⟩) main_call1.v0 main_call1.v1 maximumf,
    StableHlo.binary main_v38 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v42 : StableHlo.TRef sig ⟨S100000x128, .f32⟩) main_call2.v0 main_call2.v1 maximumf ]

/-- The line is its four stretches, one after the other. -/
theorem ops_eq : (ops : List (HloOp τ sig (Elt F))) = opsA ++ (opsB ++ (opsC ++ opsD)) := rfl

/-- @main is that straight line: sequencing grafts the continuation onto the end of a program, so with the called
    functions' definitions unfolded at their calls both sides compute to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub ..⟩

/-- On every device, for any float values, from any memory with zero counters: every weakly fair execution of @main
    terminates, and every buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over the whole line is the fold over the four stretches in turn. -/
theorem after_ops (V : Valuation τ sig (Elt F)) :
    after ops V = after opsD (after opsC (after opsB (after opsA V))) := by
  rw [ops_eq, Cert.LibFoldStretch.after_append, Cert.LibFoldStretch.after_append, Cert.LibFoldStretch.after_append]

end Cert.ReferenceIdeal.RefValue

end
-- ==== Proof.RefReadStages.lean ====
/-
  What each stretch of the reference's line computes, as a plain function of the few arrays it reads, and the fold
  of each stretch.

  * `agg x ei`: the neighbour aggregate — for every edge, the source row of `x` (a negative row number counted from
    the end) added into the destination row of an array of zeros.  Left as the operations' own term.
  * `preact x ei W1 b1`: the first layer before normalisation, `(x + agg x ei) · W1 + b1`.
  * `colMean z`: the column sums of `z` divided by the row count 100000.0.
  * `colVar z n0`: the called variance with integer argument `n0`: the column sums of the squared deviations from
    the column means, divided by "row count minus `n0`", kept where that divisor is positive.
  * `normLayer z mu var gamma beta W2 b2`: centre, multiply by the reciprocal root of `var + epsilon`, scale, shift,
    clamp at zero, multiply by `W2`, add `b2`, clamp at zero.
  The fold of the whole line at the result buffer is `normLayer` of `preact`, its `colMean` and its `colVar` at the
  integer zero; the eight argument buffers are not written.
-/
import proofs.«127043_j56727928046274_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Row `r` of the edge table as a vector of 1250000 row numbers. -/
def edgeRow0 (ei : (⟨S2x1250000, .i32⟩ : BufTy).Contents (Elt F)) : IVec S1250000 32 :=
  shapeCast S1250000 (extractStridedSlice S1x1250000 ![0, 0] ei slices_S2x1250000_S1x1250000_0_0) shapeCasts_S1x1250000_S1250000
@[inherit_doc edgeRow0]
def edgeRow1 (ei : (⟨S2x1250000, .i32⟩ : BufTy).Contents (Elt F)) : IVec S1250000 32 :=
  shapeCast S1250000 (extractStridedSlice S1x1250000 ![1, 0] ei slices_S2x1250000_S1x1250000_1_0) shapeCasts_S1x1250000_S1250000

/-- The neighbour aggregate: the rows of `x` named by the first row of the edge table (a negative number `r` read as
    `r + 100000`), each added into the row of a zero array named by the second row of the table. -/
def agg (x : FVec F S100000x64 .f32) (ei : (⟨S2x1250000, .i32⟩ : BufTy).Contents (Elt F)) : FVec F S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 (edgeRow1 (F := F) ei))
    (Host.gather gather_S100000x64_S1250000x1_S1250000x64_1_0_n_n_0_1_164 x
      (broadcastInDim S1250000x1 ![0] bcast_S1250000_S1250000x1_0
        (select (cmpi .slt (edgeRow0 (F := F) ei) (broadcastInDim S1250000 ![] bcast_S_S1250000 (constantI S_ 32 0#32)))
          (addi (edgeRow0 (F := F) ei) (broadcastInDim S1250000 ![] bcast_S_S1250000 (constantI S_ 32 100000#32)))
          (edgeRow0 (F := F) ei))))

/-- A vector of 128 entries laid along each of the 100000 rows. -/
def spread (v : FVec F S128 .f32) : FVec F S100000x128 .f32 :=
  broadcastInDim S100000x128 ![0, 1] bcast_S1x128_S100000x128_0_1 (broadcastInDim S1x128 ![1] bcast_S128_S1x128_1 v)

/-- The first layer before normalisation. -/
def preact (x : FVec F S100000x64 .f32) (ei : (⟨S2x1250000, .i32⟩ : BufTy).Contents (Elt F)) (W1 : FVec F S64x128 .f32)
    (b1 : FVec F S128 .f32) : FVec F S100000x128 .f32 :=
  addf (Host.dotGeneral dot_S100000x64_S64x128_S100000x128_1_0_0_1_n_n none (addf x (agg x ei)) W1) (spread b1)

/-- The column sums (from the float word +0.0). -/
def colSums (z : FVec F S100000x128 .f32) : FVec F S128 .f32 :=
  Host.reduceAdd z (constant S_ .f32 0x00000000#32) reducesTo_S100000x128_S128_d0 h_S_

/-- The column means: the column sums over the float word 100000.0. -/
def colMean (z : FVec F S100000x128 .f32) : FVec F S128 .f32 :=
  Host.divf (colSums z) (broadcastInDim S128 ![] bcast_S_S128 (constant S_ .f32 0x47C35000#32))

/-- The deviations from the column means, as the called variance computes them (the means laid out as one row first). -/
def deviations (z : FVec F S100000x128 .f32) : FVec F S100000x128 .f32 :=
  subf z (broadcastInDim S100000x128 ![0, 1] bcast_S1x128_S100000x128_0_1
    (Host.divf (broadcastInDim S1x128 ![1] bcast_S128_S1x128_1 (colSums z))
      (broadcastInDim S1x128 ![] bcast_S_S1x128 (constant S_ .f32 0x47C35000#32))))

/-- The called variance's divisor: the row count minus its integer argument converted. -/
def varDivisor (n0 : IVec S_ 32) : FVec F S_ .f32 :=
  subf (constant S_ .f32 0x47C35000#32) (sitofp .f32 n0)

/-- The called variance. -/
def colVar (z : FVec F S100000x128 .f32) (n0 : IVec S_ 32) : FVec F S128 .f32 :=
  select (broadcastInDim S128 ![] bcast_S_S128 (cmpf .ogt (varDivisor (F := F) n0) (constant S_ .f32 0x00000000#32)))
    (Host.divf (colSums (mulf (deviations z) (deviations z))) (broadcastInDim S128 ![] bcast_S_S128 (varDivisor (F := F) n0)))
    (broadcastInDim S128 ![] bcast_S_S128 (constant S_ .f32 0x7FC00000#32))

/-- The clamp at zero. -/
def clamp0 (y : FVec F S100000x128 .f32) : FVec F S100000x128 .f32 :=
  maximumf y (broadcastInDim S100000x128 ![] bcast_S_S100000x128 (constant S_ .f32 0x00000000#32))

/-- The normalised, scaled and shifted first layer, before its clamp. -/
def normalised (z : FVec F S100000x128 .f32) (mu var gamma beta : FVec F S128 .f32) : FVec F S100000x128 .f32 :=
  addf (mulf (mulf (subf z (spread mu))
      (spread (Host.rsqrt (addf var (broadcastInDim S128 ![] bcast_S_S128 (constant S_ .f32 0x3727C5AC#32))))))
    (spread gamma)) (spread beta)

/-- The second layer. -/
def normLayer (z : FVec F S100000x128 .f32) (mu var gamma beta : FVec F S128 .f32) (W2 : FVec F S128x128 .f32)
    (b2 : FVec F S128 .f32) : FVec F S100000x128 .f32 :=
  clamp0 (addf (Host.dotGeneral dot_S100000x128_S128x128_S100000x128_1_0_0_1_n_n none
    (clamp0 (normalised z mu var gamma beta)) W2) (spread b2))

/-! ## The fold of each stretch -/

/-- After the first stretch the pre-activation's buffer holds `preact` of the four arguments it reads. -/
theorem foldA_v18 (V : Valuation τ sig (Elt F)) :
    after (opsA (F := F)) V (Proc.devRef (τ := τ) .tc main_v18)
      = preact (V (Proc.devRef (τ := τ) .tc main_arg0)) (V (Proc.devRef (τ := τ) .tc main_arg1)) (V (Proc.devRef (τ := τ) .tc main_arg2)) (V (Proc.devRef (τ := τ) .tc main_arg3)) := by
  after_results_simp
  rfl

theorem foldA_arg0 (V : Valuation τ sig (Elt F)) :
    after (opsA (F := F)) V (Proc.devRef (τ := τ) .tc main_arg0) = V (Proc.devRef (τ := τ) .tc main_arg0) := by
  after_results_simp
theorem foldA_arg1 (V : Valuation τ sig (Elt F)) :
    after (opsA (F := F)) V (Proc.devRef (τ := τ) .tc main_arg1) = V (Proc.devRef (τ := τ) .tc main_arg1) := by
  after_results_simp
theorem foldA_arg2 (V : Valuation τ sig (Elt F)) :
    after (opsA (F := F)) V (Proc.devRef (τ := τ) .tc main_arg2) = V (Proc.devRef (τ := τ) .tc main_arg2) := by
  after_results_simp
theorem foldA_arg3 (V : Valuation τ sig (Elt F)) :
    after (opsA (F := F)) V (Proc.devRef (τ := τ) .tc main_arg3) = V (Proc.devRef (τ := τ) .tc main_arg3) := by
  after_results_simp
theorem foldA_arg4 (V : Valuation τ sig (Elt F)) :
    after (opsA (F := F)) V (Proc.devRef (τ := τ) .tc main_arg4) = V (Proc.devRef (τ := τ) .tc main_arg4) := by
  after_results_simp
theorem foldA_arg5 (V : Valuation τ sig (Elt F)) :
    after (opsA (F := F)) V (Proc.devRef (τ := τ) .tc main_arg5) = V (Proc.devRef (τ := τ) .tc main_arg5) := by
  after_results_simp
theorem foldA_arg6 (V : Valuation τ sig (Elt F)) :
    after (opsA (F := F)) V (Proc.devRef (τ := τ) .tc main_arg6) = V (Proc.devRef (τ := τ) .tc main_arg6) := by
  after_results_simp
theorem foldA_arg7 (V : Valuation τ sig (Elt F)) :
    after (opsA (F := F)) V (Proc.devRef (τ := τ) .tc main_arg7) = V (Proc.devRef (τ := τ) .tc main_arg7) := by
  after_results_simp

/-- After the second stretch the means' buffer holds `colMean` of the pre-activation. -/
theorem foldB_v21 (V : Valuation τ sig (Elt F)) :
    after (opsB (F := F)) V (Proc.devRef (τ := τ) .tc main_v21) = colMean (V (Proc.devRef (τ := τ) .tc main_v18)) := by
  after_results_simp
  rfl

/-- … and the variance's integer argument is zero. -/
theorem foldB_c_3 (V : Valuation τ sig (Elt F)) :
    after (opsB (F := F)) V (Proc.devRef (τ := τ) .tc main_c_3) = constantI S_ 32 0#32 := by
  after_results_simp

theorem foldB_v18 (V : Valuation τ sig (Elt F)) :
    after (opsB (F := F)) V (Proc.devRef (τ := τ) .tc main_v18) = V (Proc.devRef (τ := τ) .tc main_v18) := by
  after_results_simp
theorem foldB_arg0 (V : Valuation τ sig (Elt F)) :
    after (opsB (F := F)) V (Proc.devRef (τ := τ) .tc main_arg0) = V (Proc.devRef (τ := τ) .tc main_arg0) := by
  after_results_simp
theorem foldB_arg1 (V : Valuation τ sig (Elt F)) :
    after (opsB (F := F)) V (Proc.devRef (τ := τ) .tc main_arg1) = V (Proc.devRef (τ := τ) .tc main_arg1) := by
  after_results_simp
theorem foldB_arg2 (V : Valuation τ sig (Elt F)) :
    after (opsB (F := F)) V (Proc.devRef (τ := τ) .tc main_arg2) = V (Proc.devRef (τ := τ) .tc main_arg2) := by
  after_results_simp
theorem foldB_arg3 (V : Valuation τ sig (Elt F)) :
    after (opsB (F := F)) V (Proc.devRef (τ := τ) .tc main_arg3) = V (Proc.devRef (τ := τ) .tc main_arg3) := by
  after_results_simp
theorem foldB_arg4 (V : Valuation τ sig (Elt F)) :
    after (opsB (F := F)) V (Proc.devRef (τ := τ) .tc main_arg4) = V (Proc.devRef (τ := τ) .tc main_arg4) := by
  after_results_simp
theorem foldB_arg5 (V : Valuation τ sig (Elt F)) :
    after (opsB (F := F)) V (Proc.devRef (τ := τ) .tc main_arg5) = V (Proc.devRef (τ := τ) .tc main_arg5) := by
  after_results_simp
theorem foldB_arg6 (V : Valuation τ sig (Elt F)) :
    after (opsB (F := F)) V (Proc.devRef (τ := τ) .tc main_arg6) = V (Proc.devRef (τ := τ) .tc main_arg6) := by
  after_results_simp
theorem foldB_arg7 (V : Valuation τ sig (Elt F)) :
    after (opsB (F := F)) V (Proc.devRef (τ := τ) .tc main_arg7) = V (Proc.devRef (τ := τ) .tc main_arg7) := by
  after_results_simp

/-- After the third stretch the variance's buffer holds `colVar` of the pre-activation and the integer argument: the
    callee's intermediate buffers carry each value to the buffer's type and back, and the two transports cancel. -/
theorem foldC_v22 (V : Valuation τ sig (Elt F)) :
    after (opsC (F := F)) V (Proc.devRef (τ := τ) .tc main_v22) = colVar (V (Proc.devRef (τ := τ) .tc main_v18)) (V (Proc.devRef (τ := τ) .tc main_c_3)) := by
  after_results_simp
  simp only [Cert.LibFoldStretch.ofBuf_toBuf, Cert.LibFoldStretch.toBuf_ofBuf]
  rfl

theorem foldC_v18 (V : Valuation τ sig (Elt F)) :
    after (opsC (F := F)) V (Proc.devRef (τ := τ) .tc main_v18) = V (Proc.devRef (τ := τ) .tc main_v18) := by
  after_results_simp
theorem foldC_v21 (V : Valuation τ sig (Elt F)) :
    after (opsC (F := F)) V (Proc.devRef (τ := τ) .tc main_v21) = V (Proc.devRef (τ := τ) .tc main_v21) := by
  after_results_simp
theorem foldC_arg0 (V : Valuation τ sig (Elt F)) :
    after (opsC (F := F)) V (Proc.devRef (τ := τ) .tc main_arg0) = V (Proc.devRef (τ := τ) .tc main_arg0) := by
  after_results_simp
theorem foldC_arg1 (V : Valuation τ sig (Elt F)) :
    after (opsC (F := F)) V (Proc.devRef (τ := τ) .tc main_arg1) = V (Proc.devRef (τ := τ) .tc main_arg1) := by
  after_results_simp
theorem foldC_arg2 (V : Valuation τ sig (Elt F)) :
    after (opsC (F := F)) V (Proc.devRef (τ := τ) .tc main_arg2) = V (Proc.devRef (τ := τ) .tc main_arg2) := by
  after_results_simp
theorem foldC_arg3 (V : Valuation τ sig (Elt F)) :
    after (opsC (F := F)) V (Proc.devRef (τ := τ) .tc main_arg3) = V (Proc.devRef (τ := τ) .tc main_arg3) := by
  after_results_simp
theorem foldC_arg4 (V : Valuation τ sig (Elt F)) :
    after (opsC (F := F)) V (Proc.devRef (τ := τ) .tc main_arg4) = V (Proc.devRef (τ := τ) .tc main_arg4) := by
  after_results_simp
theorem foldC_arg5 (V : Valuation τ sig (Elt F)) :
    after (opsC (F := F)) V (Proc.devRef (τ := τ) .tc main_arg5) = V (Proc.devRef (τ := τ) .tc main_arg5) := by
  after_results_simp
theorem foldC_arg6 (V : Valuation τ sig (Elt F)) :
    after (opsC (F := F)) V (Proc.devRef (τ := τ) .tc main_arg6) = V (Proc.devRef (τ := τ) .tc main_arg6) := by
  after_results_simp
theorem foldC_arg7 (V : Valuation τ sig (Elt F)) :
    after (opsC (F := F)) V (Proc.devRef (τ := τ) .tc main_arg7) = V (Proc.devRef (τ := τ) .tc main_arg7) := by
  after_results_simp

/-- After the fourth stretch the result buffer holds `normLayer` of the pre-activation, its means, its variances and
    the four arguments it reads. -/
theorem foldD_v43 (V : Valuation τ sig (Elt F)) :
    after (opsD (F := F)) V (Proc.devRef (τ := τ) .tc main_v43)
      = normLayer (V (Proc.devRef (τ := τ) .tc main_v18)) (V (Proc.devRef (τ := τ) .tc main_v21)) (V (Proc.devRef (τ := τ) .tc main_v22))
          (V (Proc.devRef (τ := τ) .tc main_arg4)) (V (Proc.devRef (τ := τ) .tc main_arg5)) (V (Proc.devRef (τ := τ) .tc main_arg6)) (V (Proc.devRef (τ := τ) .tc main_arg7)) := by
  after_results_simp
  simp only [Cert.LibFoldStretch.ofBuf_toBuf, Cert.LibFoldStretch.toBuf_ofBuf]
  rfl

theorem foldD_arg0 (V : Valuation τ sig (Elt F)) :
    after (opsD (F := F)) V (Proc.devRef (τ := τ) .tc main_arg0) = V (Proc.devRef (τ := τ) .tc main_arg0) := by
  after_results_simp
theorem foldD_arg1 (V : Valuation τ sig (Elt F)) :
    after (opsD (F := F)) V (Proc.devRef (τ := τ) .tc main_arg1) = V (Proc.devRef (τ := τ) .tc main_arg1) := by
  after_results_simp
theorem foldD_arg2 (V : Valuation τ sig (Elt F)) :
    after (opsD (F := F)) V (Proc.devRef (τ := τ) .tc main_arg2) = V (Proc.devRef (τ := τ) .tc main_arg2) := by
  after_results_simp
theorem foldD_arg3 (V : Valuation τ sig (Elt F)) :
    after (opsD (F := F)) V (Proc.devRef (τ := τ) .tc main_arg3) = V (Proc.devRef (τ := τ) .tc main_arg3) := by
  after_results_simp
theorem foldD_arg4 (V : Valuation τ sig (Elt F)) :
    after (opsD (F := F)) V (Proc.devRef (τ := τ) .tc main_arg4) = V (Proc.devRef (τ := τ) .tc main_arg4) := by
  after_results_simp
theorem foldD_arg5 (V : Valuation τ sig (Elt F)) :
    after (opsD (F := F)) V (Proc.devRef (τ := τ) .tc main_arg5) = V (Proc.devRef (τ := τ) .tc main_arg5) := by
  after_results_simp
theorem foldD_arg6 (V : Valuation τ sig (Elt F)) :
    after (opsD (F := F)) V (Proc.devRef (τ := τ) .tc main_arg6) = V (Proc.devRef (τ := τ) .tc main_arg6) := by
  after_results_simp
theorem foldD_arg7 (V : Valuation τ sig (Elt F)) :
    after (opsD (F := F)) V (Proc.devRef (τ := τ) .tc main_arg7) = V (Proc.devRef (τ := τ) .tc main_arg7) := by
  after_results_simp

/-! ## The fold of the whole line -/

/-- The whole computation as one function of the eight arguments. -/
def composed (x : FVec F S100000x64 .f32) (ei : (⟨S2x1250000, .i32⟩ : BufTy).Contents (Elt F)) (W1 : FVec F S64x128 .f32)
    (b1 gamma beta : FVec F S128 .f32) (W2 : FVec F S128x128 .f32) (b2 : FVec F S128 .f32) : FVec F S100000x128 .f32 :=
  normLayer (preact x ei W1 b1) (colMean (preact x ei W1 b1)) (colVar (preact x ei W1 b1) (constantI S_ 32 0#32)) gamma beta W2 b2

/-- The fold of the whole line at the result buffer. -/
theorem after_ops_v43 (V : Valuation τ sig (Elt F)) :
    after (ops (F := F)) V (Proc.devRef (τ := τ) .tc main_v43)
      = composed (V (Proc.devRef (τ := τ) .tc main_arg0)) (V (Proc.devRef (τ := τ) .tc main_arg1)) (V (Proc.devRef (τ := τ) .tc main_arg2)) (V (Proc.devRef (τ := τ) .tc main_arg3))
          (V (Proc.devRef (τ := τ) .tc main_arg4)) (V (Proc.devRef (τ := τ) .tc main_arg5)) (V (Proc.devRef (τ := τ) .tc main_arg6)) (V (Proc.devRef (τ := τ) .tc main_arg7)) := by
  rw [after_ops, foldD_v43, foldC_v22, foldC_v18, foldC_v21, foldC_arg4, foldC_arg5, foldC_arg6, foldC_arg7,
    foldB_v21, foldB_c_3, foldB_v18, foldB_arg4, foldB_arg5, foldB_arg6, foldB_arg7,
    foldA_v18, foldA_arg4, foldA_arg5, foldA_arg6, foldA_arg7]
  rfl

theorem after_ops_arg0 (V : Valuation τ sig (Elt F)) :
    after (ops (F := F)) V (Proc.devRef (τ := τ) .tc main_arg0) = V (Proc.devRef (τ := τ) .tc main_arg0) := by
  rw [after_ops, foldD_arg0, foldC_arg0, foldB_arg0, foldA_arg0]
theorem after_ops_arg1 (V : Valuation τ sig (Elt F)) :
    after (ops (F := F)) V (Proc.devRef (τ := τ) .tc main_arg1) = V (Proc.devRef (τ := τ) .tc main_arg1) := by
  rw [after_ops, foldD_arg1, foldC_arg1, foldB_arg1, foldA_arg1]
theorem after_ops_arg2 (V : Valuation τ sig (Elt F)) :
    after (ops (F := F)) V (Proc.devRef (τ := τ) .tc main_arg2) = V (Proc.devRef (τ := τ) .tc main_arg2) := by
  rw [after_ops, foldD_arg2, foldC_arg2, foldB_arg2, foldA_arg2]
theorem after_ops_arg3 (V : Valuation τ sig (Elt F)) :
    after (ops (F := F)) V (Proc.devRef (τ := τ) .tc main_arg3) = V (Proc.devRef (τ := τ) .tc main_arg3) := by
  rw [after_ops, foldD_arg3, foldC_arg3, foldB_arg3, foldA_arg3]
theorem after_ops_arg4 (V : Valuation τ sig (Elt F)) :
    after (ops (F := F)) V (Proc.devRef (τ := τ) .tc main_arg4) = V (Proc.devRef (τ := τ) .tc main_arg4) := by
  rw [after_ops, foldD_arg4, foldC_arg4, foldB_arg4, foldA_arg4]
theorem after_ops_arg5 (V : Valuation τ sig (Elt F)) :
    after (ops (F := F)) V (Proc.devRef (τ := τ) .tc main_arg5) = V (Proc.devRef (τ := τ) .tc main_arg5) := by
  rw [after_ops, foldD_arg5, foldC_arg5, foldB_arg5, foldA_arg5]
theorem after_ops_arg6 (V : Valuation τ sig (Elt F)) :
    after (ops (F := F)) V (Proc.devRef (τ := τ) .tc main_arg6) = V (Proc.devRef (τ := τ) .tc main_arg6) := by
  rw [after_ops, foldD_arg6, foldC_arg6, foldB_arg6, foldA_arg6]
theorem after_ops_arg7 (V : Valuation τ sig (Elt F)) :
    after (ops (F := F)) V (Proc.devRef (τ := τ) .tc main_arg7) = V (Proc.devRef (τ := τ) .tc main_arg7) := by
  rw [after_ops, foldD_arg7, foldC_arg7, foldB_arg7, foldA_arg7]

end Cert.ReferenceIdeal.RefValue

end
-- ==== Proof.RefReadDot.lean ====
/-
  The reference's two matrix products and its row broadcast, read at an entry, at the ideal values (a float is an
  extended real, every operation exact).

  A product of a [100000, K] array with a [K, 128] array contracts the one axis of extent K: its entry (i, j) is the
  sum over k of left (i, k) times right (k, j).  The contraction index of the dimension record is a rank-one index;
  the sum over it is re-indexed by its one coordinate, and the operand indices the record computes at an output index
  and a contraction index are identified coordinate by coordinate.

  A vector of 128 entries is laid along every row in two steps (as one row, then down the rows); entry (i, j) of the
  result is entry j of the vector.
-/
import proofs.«127043_j56727928046274_1_alg».proof.Proof.RefReadStages
import Idealize.ShloMosaic.Lib.KernelVsHost
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-- The dimension numbers of the first product: rows of the left operand against columns of the right. -/
abbrev D1 : DotDims S100000x64 S64x128 S100000x128 := dot_S100000x64_S64x128_S100000x128_1_0_0_1_n_n

theorem D1_lhs_0 (i : S100000x128.Idx) (q : D1.contr.Idx) : (D1.lhsIdx i q 0).val = (i 0).val := by
  unfold DotDims.lhsIdx
  rw [dif_neg (show ¬(0 : Fin S100000x64.rank) ∈ D1.lhsBatch by decide), dif_pos (show (0 : Fin S100000x64.rank) ∈ D1.lhsNonContracting by decide)]
  rfl
theorem D1_lhs_1 (i : S100000x128.Idx) (q : D1.contr.Idx) : (D1.lhsIdx i q 1).val = (q ⟨0, by decide⟩).val :=
  D1.lhsIdx_val_of_single rfl i q
theorem D1_rhs_0 (i : S100000x128.Idx) (q : D1.contr.Idx) : (D1.rhsIdx i q 0).val = (q ⟨0, by decide⟩).val :=
  D1.rhsIdx_val_of_single rfl i q
theorem D1_rhs_1 (i : S100000x128.Idx) (q : D1.contr.Idx) : (D1.rhsIdx i q 1).val = (i 1).val := by
  unfold DotDims.rhsIdx
  rw [dif_neg (show ¬(1 : Fin S64x128.rank) ∈ D1.rhsBatch by decide), dif_pos (show (1 : Fin S64x128.rank) ∈ D1.rhsNonContracting by decide)]
  rfl

/-- The product at row `i`, column `j`: the sum over the 64 contracted positions of left (i, k) times right (k, j). -/
theorem dot1_apply (l : FVec Ideal S100000x64 .f32) (r : FVec Ideal S64x128 .f32) (i : Fin 100000) (j : Fin 128) :
    Host.dotGeneral (F := Ideal) D1 none l r (ix2 i j) = ∑ k : Fin 64, l (ix2 i k) * r (ix2 k j) := by
  simp only [Host.dotGeneral]
  rw [Ideal.dotGeneral_apply, ← Equiv.sum_comp (ValueIdx.contrEquiv1 D1 64 rfl rfl).symm]
  refine Finset.sum_congr rfl fun k _ => ?_
  have hk := ValueIdx.contrEquiv1_symm_val D1 64 rfl rfl k
  have el : D1.lhsIdx (ix2 i j) ((ValueIdx.contrEquiv1 D1 64 rfl rfl).symm k) = ix2 i k := funext fun a => Fin.ext (by
    match a with
    | ⟨0, _⟩ => exact D1_lhs_0 _ _
    | ⟨1, _⟩ => exact (D1_lhs_1 _ _).trans hk)
  have er : D1.rhsIdx (ix2 i j) ((ValueIdx.contrEquiv1 D1 64 rfl rfl).symm k) = ix2 k j := funext fun a => Fin.ext (by
    match a with
    | ⟨0, _⟩ => exact (D1_rhs_0 _ _).trans hk
    | ⟨1, _⟩ => exact D1_rhs_1 _ _)
  rw [el, er]

/-- The dimension numbers of the second product: rows of the left operand against columns of the right. -/
abbrev D2 : DotDims S100000x128 S128x128 S100000x128 := dot_S100000x128_S128x128_S100000x128_1_0_0_1_n_n

theorem D2_lhs_0 (i : S100000x128.Idx) (q : D2.contr.Idx) : (D2.lhsIdx i q 0).val = (i 0).val := by
  unfold DotDims.lhsIdx
  rw [dif_neg (show ¬(0 : Fin S100000x128.rank) ∈ D2.lhsBatch by decide), dif_pos (show (0 : Fin S100000x128.rank) ∈ D2.lhsNonContracting by decide)]
  rfl
theorem D2_lhs_1 (i : S100000x128.Idx) (q : D2.contr.Idx) : (D2.lhsIdx i q 1).val = (q ⟨0, by decide⟩).val :=
  D2.lhsIdx_val_of_single rfl i q
theorem D2_rhs_0 (i : S100000x128.Idx) (q : D2.contr.Idx) : (D2.rhsIdx i q 0).val = (q ⟨0, by decide⟩).val :=
  D2.rhsIdx_val_of_single rfl i q
theorem D2_rhs_1 (i : S100000x128.Idx) (q : D2.contr.Idx) : (D2.rhsIdx i q 1).val = (i 1).val := by
  unfold DotDims.rhsIdx
  rw [dif_neg (show ¬(1 : Fin S128x128.rank) ∈ D2.rhsBatch by decide), dif_pos (show (1 : Fin S128x128.rank) ∈ D2.rhsNonContracting by decide)]
  rfl

/-- The product at row `i`, column `j`: the sum over the 128 contracted positions of left (i, k) times right (k, j). -/
theorem dot2_apply (l : FVec Ideal S100000x128 .f32) (r : FVec Ideal S128x128 .f32) (i : Fin 100000) (j : Fin 128) :
    Host.dotGeneral (F := Ideal) D2 none l r (ix2 i j) = ∑ k : Fin 128, l (ix2 i k) * r (ix2 k j) := by
  simp only [Host.dotGeneral]
  rw [Ideal.dotGeneral_apply, ← Equiv.sum_comp (ValueIdx.contrEquiv1 D2 128 rfl rfl).symm]
  refine Finset.sum_congr rfl fun k _ => ?_
  have hk := ValueIdx.contrEquiv1_symm_val D2 128 rfl rfl k
  have el : D2.lhsIdx (ix2 i j) ((ValueIdx.contrEquiv1 D2 128 rfl rfl).symm k) = ix2 i k := funext fun a => Fin.ext (by
    match a with
    | ⟨0, _⟩ => exact D2_lhs_0 _ _
    | ⟨1, _⟩ => exact (D2_lhs_1 _ _).trans hk)
  have er : D2.rhsIdx (ix2 i j) ((ValueIdx.contrEquiv1 D2 128 rfl rfl).symm k) = ix2 k j := funext fun a => Fin.ext (by
    match a with
    | ⟨0, _⟩ => exact (D2_rhs_0 _ _).trans hk
    | ⟨1, _⟩ => exact D2_rhs_1 _ _)
  rw [el, er]

/-- A vector laid out as one row reads, at (0, j), entry j. -/
theorem row_apply {α : Type} (v : S128.Idx → α) (j : Fin 128) :
    broadcastInDim S1x128 ![1] bcast_S128_S1x128_1 v (ix2 (0 : Fin 1) j) = v (ix1 j) := by
  refine broadcastInDim_apply ![1] bcast_S128_S1x128_1 v (ix2 (0 : Fin 1) j) (ix1 j) ?_
  intro a
  match a with
  | ⟨0, _⟩ => rfl

/-- A vector laid along every row reads, at (i, j), entry j. -/
theorem spread_apply (v : FVec Ideal S128 .f32) (i : Fin 100000) (j : Fin 128) : spread v (ix2 i j) = v (ix1 j) := by
  unfold spread
  exact (broadcastInDim_oneRow_apply (m := 100000) (n := 128) bcast_S1x128_S100000x128_0_1 _ i j).trans (row_apply v j)

/-- A scalar laid over 128 entries reads the scalar. -/
theorem fill128_apply {α : Type} (x : S_.Idx → α) (j : Fin 128) :
    broadcastInDim S128 ![] bcast_S_S128 x (ix1 j) = x ix0 :=
  broadcastInDim_scalar_apply bcast_S_S128 x (ix1 j)

end Cert.ReferenceIdeal.RefValue

end
-- ==== Proof.RefReadStats.lean ====
/-
  The reference's batch statistics read at a column, at the ideal values.

  The column sums start from the float word +0.0, which is the real 0, so they are the plain sums over the 100000
  rows; the means divide them by the float word 100000.0.  The called variance takes an integer argument, here the
  integer 0: its divisor "100000.0 minus the argument converted" is then 100000.0 itself, the test "divisor greater
  than +0.0" holds, and the selection returns the quotient — the mean of the squared deviations from the mean.
-/
import proofs.«127043_j56727928046274_1_alg».proof.Proof.RefReadDot
import proofs.«127043_j56727928046274_1_alg».proof.Proof.Spec

noncomputable section

open scoped BigOperators

namespace Cert.ReferenceIdeal.RefValue

open Cert.ReferenceIdeal Cert.ReferenceIdeal.Gen Idealize.ShloMosaic Idealize.ShloMosaic.ValueIdx

/-- The column sums at column `j`: +0.0 plus the sum down the rows. -/
theorem colSums_apply (z : FVec Ideal S100000x128 .f32) (j : Fin 128) :
    colSums z (ix1 j) = Cert.Spec.zero + ∑ i : Fin 100000, z (ix2 i j) := by
  unfold colSums
  simp only [Host.reduceAdd, Ideal.hostReduceAdd_def]
  rw [Ideal.hostReduceAdd_single reducesTo_S100000x128_S128_d0 (by decide)]
  refine congrArg (_ + ·) (Finset.sum_congr rfl fun k _ => ?_)
  exact congrArg z (funext fun a => Fin.ext (by match a with | ⟨0, _⟩ => rfl | ⟨1, _⟩ => rfl))

/-- The column means are the specification's means of the array read by coordinates. -/
theorem colMean_apply (z : FVec Ideal S100000x128 .f32) (j : Fin 128) :
    colMean z (ix1 j) = Cert.Spec.mean (fun i k => z (ix2 i k)) j := by
  unfold colMean Cert.Spec.mean Cert.Spec.colSum
  refine (hostDivf_apply _ _ _).trans ?_
  rw [colSums_apply, fill128_apply, Cert.Spec.zero_eq, zero_add]
  rfl

/-- The deviations, as the called variance computes them, are the entries minus the specification's means. -/
theorem deviations_apply (z : FVec Ideal S100000x128 .f32) (i : Fin 100000) (j : Fin 128) :
    deviations z (ix2 i j) = z (ix2 i j) - Cert.Spec.mean (fun i k => z (ix2 i k)) j := by
  unfold deviations Cert.Spec.mean Cert.Spec.colSum
  refine (subf_apply _ _ _).trans ?_
  refine congrArg (z (ix2 i j) - ·) ?_
  refine (broadcastInDim_oneRow_apply (m := 100000) (n := 128) bcast_S1x128_S100000x128_0_1 _ i j).trans ?_
  refine (hostDivf_apply _ _ _).trans ?_
  rw [row_apply, broadcastInDim_scalar_apply, colSums_apply, Cert.Spec.zero_eq, zero_add]
  rfl

/-- The integer zero converted to a float is the real 0. -/
theorem sitofp_zero_eq : ((((0#32 : BitVec 32).toInt : ℤ) : ℝ) : EReal) = 0 := by simp

/-- With the integer argument zero the called variance's divisor is the row count. -/
theorem varDivisor_zero : varDivisor (F := Ideal) (constantI S_ 32 0#32) ix0 = Cert.Spec.nrows := by
  show Ideal.ofBits .f32 0x47C35000#32 - ((((0#32 : BitVec 32).toInt : ℤ) : ℝ) : EReal) = Cert.Spec.nrows
  rw [sitofp_zero_eq, sub_zero]
  rfl

/-- The row count is greater than +0.0. -/
theorem nrows_gt_zero : Ideal.cmp .ogt Cert.Spec.nrows Cert.Spec.zero = 1#1 := by
  have h : Cert.Spec.zero < Cert.Spec.nrows := by
    rw [Cert.Spec.zero_eq, Cert.Spec.nrows_eq]
    exact EReal.coe_pos.mpr (by norm_num)
  show BitVec.ofBool (decide (Cert.Spec.zero < Cert.Spec.nrows)) = 1#1
  rw [decide_eq_true h]
  rfl

/-- The called variance at the integer argument zero is the specification's mean of squared deviations. -/
theorem colVar_apply (z : FVec Ideal S100000x128 .f32) (j : Fin 128) :
    colVar z (constantI S_ 32 0#32) (ix1 j) = Cert.Spec.varR (fun i k => z (ix2 i k)) j := by
  unfold colVar
  refine (select_apply _ _ _ (ix1 j)).trans ?_
  have hc : broadcastInDim S128 ![] bcast_S_S128
      (cmpf .ogt (varDivisor (F := Ideal) (constantI S_ 32 0#32)) (constant S_ .f32 0x00000000#32)) (ix1 j) = 1#1 := by
    rw [fill128_apply]
    show Ideal.cmp .ogt (varDivisor (F := Ideal) (constantI S_ 32 0#32) ix0) Cert.Spec.zero = 1#1
    rw [varDivisor_zero]
    exact nrows_gt_zero
  rw [hc, select_one]
  refine (hostDivf_apply _ _ _).trans ?_
  rw [fill128_apply, varDivisor_zero, colSums_apply, Cert.Spec.zero_eq, zero_add]
  unfold Cert.Spec.varR
  refine congrArg (Ideal.div · Cert.Spec.nrows) (Finset.sum_congr rfl fun i _ => ?_)
  refine (mulf_apply _ _ _).trans ?_
  rw [deviations_apply]

end Cert.ReferenceIdeal.RefValue

end
-- ==== Proof.RefReadTail.lean ====
/-
  The reference's second layer read at an entry, at the ideal values.

  Each entry of the first layer is centred by its column's mean, multiplied by the reciprocal root of its column's
  variance plus the epsilon word, scaled and shifted by the column's gamma and beta, and clamped below at +0.0; row i
  of the result against column j of the second weight matrix, plus the bias, clamped again, is entry (i, j) of the
  output.  Every broadcast reads the vector's entry at the column; the clamp is the maximum with the word +0.0.
-/
import proofs.«127043_j56727928046274_1_alg».proof.Proof.RefReadDot
import proofs.«127043_j56727928046274_1_alg».proof.Proof.Spec

noncomputable section

open scoped BigOperators

namespace Cert.ReferenceIdeal.RefValue

open Cert.ReferenceIdeal Cert.ReferenceIdeal.Gen Idealize.ShloMosaic Idealize.ShloMosaic.ValueIdx

/-- The clamp at an entry: the maximum with +0.0. -/
theorem clamp0_apply (y : FVec Ideal S100000x128 .f32) (i : Fin 100000) (j : Fin 128) :
    clamp0 y (ix2 i j) = max (y (ix2 i j)) Cert.Spec.zero := by
  unfold clamp0
  refine (maximumf_apply _ _ _).trans ?_
  rw [broadcastInDim_scalar_apply]
  rfl

/-- The normalised, scaled and shifted first layer at an entry. -/
theorem normalised_apply (z : FVec Ideal S100000x128 .f32) (mu var gamma beta : FVec Ideal S128 .f32) (i : Fin 100000) (k : Fin 128) :
    normalised z mu var gamma beta (ix2 i k)
      = (z (ix2 i k) - mu (ix1 k)) * Ideal.rsqrt (var (ix1 k) + Cert.Spec.eps) * gamma (ix1 k) + beta (ix1 k) := by
  unfold normalised
  show (z (ix2 i k) - spread mu (ix2 i k))
        * spread (Host.rsqrt (addf var (broadcastInDim S128 ![] bcast_S_S128 (constant (F := Ideal) S_ .f32 0x3727C5AC#32)))) (ix2 i k)
        * spread gamma (ix2 i k) + spread beta (ix2 i k) = _
  simp only [spread_apply]
  show (z (ix2 i k) - mu (ix1 k))
        * Ideal.rsqrt (var (ix1 k) + broadcastInDim S128 ![] bcast_S_S128 (constant (F := Ideal) S_ .f32 0x3727C5AC#32) (ix1 k))
        * gamma (ix1 k) + beta (ix1 k) = _
  rw [fill128_apply]
  rfl

/-- The second layer at an entry is the specification's `tail` of the arrays read by coordinates. -/
theorem normLayer_apply (z : FVec Ideal S100000x128 .f32) (mu var gamma beta : FVec Ideal S128 .f32)
    (W2 : FVec Ideal S128x128 .f32) (b2 : FVec Ideal S128 .f32) (i : Fin 100000) (j : Fin 128) :
    normLayer z mu var gamma beta W2 b2 (ix2 i j)
      = Cert.Spec.tail (fun k => z (ix2 i k)) (fun k => mu (ix1 k)) (fun k => var (ix1 k)) (fun k => gamma (ix1 k))
          (fun k => beta (ix1 k)) (fun k j => W2 (ix2 k j)) (fun k => b2 (ix1 k)) j := by
  unfold normLayer Cert.Spec.tail
  rw [clamp0_apply]
  refine congrArg (max · Cert.Spec.zero) ?_
  refine (addf_apply _ _ _).trans ?_
  rw [spread_apply]
  refine congrArg (· + b2 (ix1 j)) ?_
  refine (dot2_apply _ _ i j).trans (Finset.sum_congr rfl fun k _ => ?_)
  rw [clamp0_apply, normalised_apply]

end Cert.ReferenceIdeal.RefValue

end
-- ==== Proof.RefRead.lean ====
/-
  The reference's result by coordinates, and its run.

  `zOf x ei W1 b1 i j` is entry (i, j) of the first layer before normalisation: row i of `x` plus the neighbour
  aggregate, against column j of the first weight matrix, plus the bias.  `result` is the specification's second
  layer of `zOf`, its column means and its column variances (as means of squared deviations).  The composed term the
  reference's line leaves in its result buffer is `result` entry by entry: the product is the sum over the contracted
  axis, the statistics are the specification's, and the second layer is the specification's `tail`.  Hence every
  weakly fair execution of the reference ends with `result` of the launch contents of its eight arguments in the
  result buffer, and the arguments unchanged.
-/
import proofs.«127043_j56727928046274_1_alg».proof.Proof.RefReadStats
import proofs.«127043_j56727928046274_1_alg».proof.Proof.RefReadTail

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem
  Idealize.ShloMosaic.StableHlo

/-- Entry (i, j) of the first layer before normalisation. -/
def zOf (x : FVec Ideal S100000x64 .f32) (ei : (⟨S2x1250000, .i32⟩ : BufTy).Contents (Elt Ideal)) (W1 : FVec Ideal S64x128 .f32)
    (b1 : FVec Ideal S128 .f32) (i : Fin 100000) (j : Fin 128) : EReal :=
  Cert.Spec.lin (fun k : Fin 64 => x (ix2 i k) + agg x ei (ix2 i k)) (fun k j => W1 (ix2 k j)) (fun j => b1 (ix1 j)) j

/-- The reference's result, entry by entry. -/
def result (x : FVec Ideal S100000x64 .f32) (ei : (⟨S2x1250000, .i32⟩ : BufTy).Contents (Elt Ideal)) (W1 : FVec Ideal S64x128 .f32)
    (b1 gamma beta : FVec Ideal S128 .f32) (W2 : FVec Ideal S128x128 .f32) (b2 : FVec Ideal S128 .f32) :
    FVec Ideal S100000x128 .f32 := fun idx =>
  Cert.Spec.tail (fun k => zOf x ei W1 b1 (idx 0 : Fin 100000) k) (Cert.Spec.mean (zOf x ei W1 b1)) (Cert.Spec.varR (zOf x ei W1 b1))
    (fun k => gamma (ix1 k)) (fun k => beta (ix1 k)) (fun k j => W2 (ix2 k j)) (fun k => b2 (ix1 k)) (idx 1 : Fin 128)

/-- The first layer before normalisation, read at an entry. -/
theorem preact_apply (x : FVec Ideal S100000x64 .f32) (ei : (⟨S2x1250000, .i32⟩ : BufTy).Contents (Elt Ideal))
    (W1 : FVec Ideal S64x128 .f32) (b1 : FVec Ideal S128 .f32) (i : Fin 100000) (j : Fin 128) :
    preact x ei W1 b1 (ix2 i j) = zOf x ei W1 b1 i j := by
  unfold preact zOf Cert.Spec.lin
  refine (addf_apply _ _ _).trans ?_
  rw [spread_apply]
  refine congrArg (· + b1 (ix1 j)) ?_
  refine (dot1_apply _ _ i j).trans (Finset.sum_congr rfl fun k _ => ?_)
  exact congrArg (· * W1 (ix2 k j)) (addf_apply x (agg x ei) (ix2 i k))

/-- The composed term of the reference's line is `result`. -/
theorem composed_eq_result (x : FVec Ideal S100000x64 .f32) (ei : (⟨S2x1250000, .i32⟩ : BufTy).Contents (Elt Ideal))
    (W1 : FVec Ideal S64x128 .f32) (b1 gamma beta : FVec Ideal S128 .f32) (W2 : FVec Ideal S128x128 .f32) (b2 : FVec Ideal S128 .f32) :
    composed x ei W1 b1 gamma beta W2 b2 = result x ei W1 b1 gamma beta W2 b2 := by
  funext idx
  obtain ⟨i, j, rfl⟩ : ∃ (i : Fin 100000) (j : Fin 128), idx = ix2 i j := ⟨idx 0, idx 1, eq_ix2 idx⟩
  have hz : ∀ (i : Fin 100000) (k : Fin 128), preact x ei W1 b1 (ix2 i k) = zOf x ei W1 b1 i k :=
    fun i k => preact_apply x ei W1 b1 i k
  unfold composed
  rw [normLayer_apply]
  simp only [colMean_apply, colVar_apply, hz]
  rfl

/-- On every device, from any memory with zero counters: every weakly fair execution of the reference terminates with
    its result buffer at `result` of the arguments' launch contents, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v43)
        = result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.ReferenceIdeal.defs (F := Ideal)) _ _).mono (fun _ h c =>
    ⟨(h c main_v43).trans ((after_ops_v43 (launchContents m c)).trans (composed_eq_result _ _ _ _ _ _ _ _)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c))⟩)
    (run_all (F := Ideal) m ρ)

end Cert.ReferenceIdeal.RefValue

end
-- ==== Proof.VarLaw.lean ====
/-
  The law that joins the two programs: the two spellings of a column's variance agree when the column's entries are
  real numbers.

  Write N = 100000 for the number of rows, S = ∑ i, z i for a column's sum, Q = ∑ i, z i ² for the sum of its squares and
  μ = S / N for its mean.  Expanding the square,
      ∑ i, (z i − μ)²  =  Q − 2 μ S + N μ²  =  Q − N μ²        (because S = N μ),
  so  (∑ i, (z i − μ)²) / N  =  Q / N − μ².
  This uses distributivity and cancellation, which the extended reals do not have at their infinities: the statement
  is about columns of real numbers, and each side is computed in ℝ and carried back through the coercion.
-/
import proofs.«127043_j56727928046274_1_alg».proof.Proof.Spec

noncomputable section

open scoped BigOperators

namespace Cert.VarLaw

open Idealize.ShloMosaic Cert.Spec

/-- The coercion from the reals to the extended reals carries a finite sum to the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a real by the row count, in the extended reals, is the real quotient. -/
theorem div_nrows (x : ℝ) : Ideal.div (x : EReal) nrows = ((x / 100000 : ℝ) : EReal) := by
  rw [nrows_eq, Ideal.div_coe (by norm_num : (100000 : ℝ) ≠ 0), ← EReal.coe_mul]
  congr 1; ring

/-- In ℝ: the mean of the squared deviations from the mean is the mean of the squares minus the squared mean. -/
theorem real_var (f : Fin 100000 → ℝ) :
    (∑ i, (f i - (∑ i, f i) / 100000) * (f i - (∑ i, f i) / 100000)) / 100000
      = (∑ i, f i * f i) / 100000 - ((∑ i, f i) / 100000) * ((∑ i, f i) / 100000) := by
  have hexp : ∀ i, (f i - (∑ i, f i) / 100000) * (f i - (∑ i, f i) / 100000)
      = f i * f i - 2 * ((∑ i, f i) / 100000) * f i + ((∑ i, f i) / 100000) * ((∑ i, f i) / 100000) := fun i => by ring
  simp only [hexp, Finset.sum_add_distrib, Finset.sum_sub_distrib, ← Finset.mul_sum, Finset.sum_const, Finset.card_univ,
    Fintype.card_fin, nsmul_eq_mul]
  push_cast
  ring

/-- A column of real numbers has one variance, whichever way it is spelt. -/
theorem var_eq (z : Fin 100000 → Fin 128 → EReal) (hz : ∀ i j, ∃ r : ℝ, z i j = (r : EReal)) (j : Fin 128) :
    varK z j = varR z j := by
  choose r hr using hz
  have hS : colSum z j = ((∑ i, r i j : ℝ) : EReal) := by
    unfold colSum; rw [coe_sum]; exact Finset.sum_congr rfl fun i _ => hr i j
  have hQ : colSumSq z j = ((∑ i, r i j * r i j : ℝ) : EReal) := by
    unfold colSumSq; rw [coe_sum]; exact Finset.sum_congr rfl fun i _ => by rw [hr i j, ← EReal.coe_mul]
  have hμ : mean z j = (((∑ i, r i j) / 100000 : ℝ) : EReal) := by
    unfold mean; rw [hS, div_nrows]
  have hD : (∑ i : Fin 100000, (z i j - mean z j) * (z i j - mean z j))
      = ((∑ i, (r i j - (∑ i, r i j) / 100000) * (r i j - (∑ i, r i j) / 100000) : ℝ) : EReal) := by
    rw [coe_sum]; exact Finset.sum_congr rfl fun i _ => by rw [hμ, hr i j, ← EReal.coe_sub, ← EReal.coe_mul]
  unfold varK varR
  rw [hD, div_nrows, hQ, div_nrows, hμ, ← EReal.coe_mul, ← EReal.coe_sub, real_var (fun i => r i j)]

end Cert.VarLaw

end
-- ==== Proof.PreReal.lean ====
/-
  From the precondition to real numbers.

  The precondition says, of each float argument array, that every entry's absolute value is below +infinity.  On the
  extended reals |x| = max x (−x), and max x (−x) < ⊤ excludes both x = ⊤ and x = ⊥: the entry is a real number (the general facts about real entries are a module of their own).
  The seven arrays' conditions are joined by "and", nested to the left in argument order; the first layer's three
  arrays — the features, the first weight matrix and the first bias — are the three innermost conjuncts.  Each
  condition is an "all" over its array (a reduction by "and" starting from 1), which is 1 only if every flag is 1.

  Also here: one entry of a linear layer over real rows, weights and bias is real (sums and products of real numbers
  are real).
-/
import proofs.«127043_j56727928046274_1_alg».proof.Pre_finite_inputs
import proofs.«127043_j56727928046274_1_alg».proof.Proof.Spec
import proofs.«127043_j56727928046274_1_alg».proof.Proof.LibRealEntries
import Idealize.ShloMosaic.Lib.ReduceAll
import Idealize.ShloMosaic.Lib.ValueIdx

noncomputable section

open scoped BigOperators

namespace Cert.PreReal

open Idealize.ShloMosaic Idealize.ShloMosaic.ValueIdx Idealize.ShloMosaic.RealEntries Cert.Pre_finite_inputs

/-- One entry of a linear layer over real rows, weights and bias is real. -/
theorem lin_real {K : Nat} (hrow : Fin K → EReal) (W : Fin K → Fin 128 → EReal) (b : Fin 128 → EReal) (j : Fin 128)
    (hh : ∀ k, IsReal (hrow k)) (hW : ∀ k j, IsReal (W k j)) (hb : ∀ j, IsReal (b j)) : IsReal (Cert.Spec.lin hrow W b j) := by
  unfold Cert.Spec.lin
  exact (IsReal.sum _ _ fun k _ => (hh k).mul (hW k j)).add (hb j)

/-- An "and" of two one-bit arrays that is 1 at an index has both at 1 there. -/
theorem both {s : Shape} (A B : IVec s 1) (i : s.Idx) (h : andi A B i = 1#1) : A i = 1#1 ∧ B i = 1#1 :=
  IntOp.andi_eq_one.1 h

instance : Subsingleton S_.Idx := ⟨fun a b => funext fun d => d.elim0⟩

variable [Facts]

/-- Under the precondition the features, the first weight matrix and the first bias hold real numbers. -/
theorem first_layer_real (a0 : FVec Ideal S100000x64 .f32) (a1 : IVec S2x1250000 32) (a2 : FVec Ideal S64x128 .f32)
    (a3 a4 a5 : FVec Ideal S128 .f32) (a6 : FVec Ideal S128x128 .f32) (a7 : FVec Ideal S128 .f32)
    (h : fn (F := Ideal) a0 a1 a2 a3 a4 a5 a6 a7 = fun _ => 1#1) :
    (∀ i, IsReal (a0 i)) ∧ (∀ i, IsReal (a2 i)) ∧ (∀ i, IsReal (a3 i)) := by
  have h0 := congrFun h ix0
  dsimp only [fn, fn_part1] at h0
  obtain ⟨h6, -⟩ := both _ _ _ h0
  obtain ⟨h5, -⟩ := both _ _ _ h6
  obtain ⟨h4, -⟩ := both _ _ _ h5
  obtain ⟨h3, -⟩ := both _ _ _ h4
  obtain ⟨h2, hb1⟩ := both _ _ _ h3
  obtain ⟨hx, hW1⟩ := both _ _ _ h2
  exact ⟨fun i => real_of_flag a0 _ (fun _ => rfl) i (Host.reduce_andi_all _ _ _ _ ix0 hx i),
    fun i => real_of_flag a2 _ (fun _ => rfl) i (Host.reduce_andi_all _ _ _ _ ix0 hW1 i),
    fun i => real_of_flag a3 _ (fun _ => rfl) i (Host.reduce_andi_all _ _ _ _ ix0 hb1 i)⟩

end Cert.PreReal

end
-- ==== Proof.Bridge.lean ====
/-
  The two programs compute one function, when the first layer's inputs are real numbers.

  Both programs form the same first layer: the neighbour aggregate is the same composition of the same host operations
  on both sides, so the two spellings of it are one term.  They differ only in how a column's variance is spelt, and
  the two spellings agree on columns of real numbers.  The first layer's entries ARE real numbers when the features,
  the first weight matrix and the first bias are: the aggregate of real rows is real (zero plus finite sums of
  gathered feature entries), and sums and products of real numbers are real.  Nothing is needed of the scale, the
  shift, the second weight matrix or the second bias: from the variance on, both programs apply the same operations to
  equal values.
-/
import proofs.«127043_j56727928046274_1_alg».proof.Proof.KerResult
import proofs.«127043_j56727928046274_1_alg».proof.Proof.RefRead
import proofs.«127043_j56727928046274_1_alg».proof.Proof.VarLaw
import proofs.«127043_j56727928046274_1_alg».proof.Proof.PreReal

noncomputable section

namespace Cert.Bridge

open Idealize.ShloMosaic Idealize.ShloMosaic.ValueIdx Idealize.ShloMosaic.RealEntries

/-- The neighbour aggregate is spelt by the same operations in both programs. -/
theorem agg_same (x : FVec Ideal Cert.KernelIdeal.S100000x64 .f32) (ei : IVec Cert.KernelIdeal.S2x1250000 32) :
    Cert.ReferenceIdeal.RefValue.agg (F := Ideal) x ei = Cert.KernelIdeal.KerHost.agg x ei := rfl

/-- Hence the first layer is the same function of the arguments in both. -/
theorem zOf_same (x : FVec Ideal Cert.KernelIdeal.S100000x64 .f32) (ei : IVec Cert.KernelIdeal.S2x1250000 32)
    (W1 : FVec Ideal Cert.KernelIdeal.S64x128 .f32) (b1 : FVec Ideal Cert.KernelIdeal.S128 .f32) :
    Cert.ReferenceIdeal.RefValue.zOf x ei W1 b1 = Cert.KernelIdeal.KerValue.zOf x ei W1 b1 := rfl

/-- The first layer of real features, weights and bias holds real numbers. -/
theorem zOf_real (x : FVec Ideal Cert.KernelIdeal.S100000x64 .f32) (ei : IVec Cert.KernelIdeal.S2x1250000 32)
    (W1 : FVec Ideal Cert.KernelIdeal.S64x128 .f32) (b1 : FVec Ideal Cert.KernelIdeal.S128 .f32)
    (hx : ∀ i, IsReal (x i)) (hW : ∀ i, IsReal (W1 i)) (hb : ∀ i, IsReal (b1 i)) (i : Fin 100000) (j : Fin 128) :
    IsReal (Cert.KernelIdeal.KerValue.zOf x ei W1 b1 i j) :=
  Cert.PreReal.lin_real _ _ _ j (fun k => (hx _).add (Cert.KernelIdeal.KerHost.agg_real x ei hx _)) (fun k j => hW _) (fun j => hb _)

/-- On real first-layer inputs the reference's result is the kernel's. -/
theorem result_same (x : FVec Ideal Cert.KernelIdeal.S100000x64 .f32) (ei : IVec Cert.KernelIdeal.S2x1250000 32)
    (W1 : FVec Ideal Cert.KernelIdeal.S64x128 .f32) (b1 gamma beta : FVec Ideal Cert.KernelIdeal.S128 .f32)
    (W2 : FVec Ideal Cert.KernelIdeal.S128x128 .f32) (b2 : FVec Ideal Cert.KernelIdeal.S128 .f32)
    (hx : ∀ i, IsReal (x i)) (hW : ∀ i, IsReal (W1 i)) (hb : ∀ i, IsReal (b1 i)) :
    Cert.ReferenceIdeal.RefValue.result x ei W1 b1 gamma beta W2 b2 = Cert.KernelIdeal.KerValue.result x ei W1 b1 gamma beta W2 b2 := by
  have hv : Cert.Spec.varR (Cert.KernelIdeal.KerValue.zOf x ei W1 b1) = Cert.Spec.varK (Cert.KernelIdeal.KerValue.zOf x ei W1 b1) :=
    funext fun j => (Cert.VarLaw.var_eq _ (fun i j => zOf_real x ei W1 b1 hx hW hb i j) j).symm
  funext idx
  unfold Cert.ReferenceIdeal.RefValue.result Cert.KernelIdeal.KerValue.result
  rw [zOf_same, hv]

end Cert.Bridge

end
-- ==== Proof.lean ====
/-
  A graph layer with batch normalisation: a kernel in two launches against its one-line reference.

  Over N = 100000 nodes with 64 features each, and 1250000 edges given as a table of source and destination rows:
    * the NEIGHBOUR AGGREGATE adds, into each destination's row, the feature rows of its sources;
    * the FIRST LAYER is  z = (x + aggregate) · W1 + b1,  an N × 128 array;
    * BATCH NORMALISATION takes each column's mean μ and variance v over the N rows and forms
      (z − μ) · rsqrt(v + ε) · γ + β,  clamped below at zero;
    * the SECOND LAYER multiplies by W2, adds b2 and clamps below at zero again.
  The reference does this with whole-array host operations.  The kernel computes the aggregate on the host, then a
  first launch forms z in twenty blocks of 5000 rows while accumulating each column's sum and sum of squares across the
  blocks, the host divides the two accumulated rows by N and subtracts the squared mean, and a second launch applies
  the normalisation and the second layer block by block.

  On the extended reals every operation above is exact and a change of float format is the identity, so the two
  programs agree operation for operation except in ONE place: the kernel's variance is the mean of the squares minus
  the square of the mean, the reference's is the mean of the squared deviations from the mean.  These are equal for
  columns of real numbers (expand the square; the cross term is −2μ·Nμ), and not in general at the infinities, which is
  where the precondition is used: finite features, first weights and first bias make every entry of z a real number —
  the aggregate of real rows being zero plus finite sums of gathered feature entries.  The scale, shift, second weights
  and second bias need nothing: from the variance on, both programs apply the same operations to equal values.

  The pieces: the specification (Spec), the variance law (VarLaw), real entries (LibRealEntries, PreReal), the
  kernel's run with its result named (KerRun), what each launch finds (KerHost0, KerHost1) and leaves (KerRegion0…,
  KerRegion1…), the kernel's result as one function (KerResult, KerValue1, KerValue2), the reference's run and result
  (RefRun, RefRead…), and that the two results are one function on real inputs (Bridge).  Here they are assembled.
-/
import proofs.«127043_j56727928046274_1_alg».proof.Defs
import proofs.«127043_j56727928046274_1_alg».proof.Proof.Gen.Kernel
import proofs.«127043_j56727928046274_1_alg».proof.Proof.Gen.Kernel.Frame
import proofs.«127043_j56727928046274_1_alg».proof.Proof.Gen.KernelIdeal
import proofs.«127043_j56727928046274_1_alg».proof.Proof.Gen.KernelIdeal.Frame
import proofs.«127043_j56727928046274_1_alg».proof.Proof.Gen.ReferenceIdeal
import proofs.«127043_j56727928046274_1_alg».proof.Proof.Gen.Pre_finite_inputs
import proofs.«127043_j56727928046274_1_alg».proof.Proof.KerValue2
import proofs.«127043_j56727928046274_1_alg».proof.Proof.RefRead
import proofs.«127043_j56727928046274_1_alg».proof.Proof.Bridge
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result forgotten. -/
theorem frame_ri : Cert.frame_ReferenceIdeal := fun m ρ _ =>
  (θ_run (Cert.ReferenceIdeal.defs (F := Ideal)) _ _).mono (fun _ h c => (h c).2) (Cert.ReferenceIdeal.RefValue.run m ρ)

/-- The idealization rewrote nothing: the idealized kernel is the kernel's own text read on the extended reals. -/
theorem preserves : Cert.preserves_Kernel_KernelIdeal := trivial

/-- From memories agreeing on the arguments, under the precondition, both programs end with the same result: the
    kernel's run ends at its result function of the launched arguments, the reference's at its own, and on the real
    first-layer inputs the precondition gives, the two functions agree. -/
theorem algebraic : Cert.algebraic_KernelIdeal_ReferenceIdeal := by
  intro m ρ m' ρ' hpre hagree
  refine ⟨fun c => Cert.KernelIdeal.KerValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run (Cert.KernelIdeal.defs (F := Ideal)) _ _).mono
      (fun _ h c => ⟨(h c).1.trans (Cert.KernelIdeal.KerValue.value m ρ c), (h c).2⟩)
      (Cert.KernelIdeal.KerRun.run_main m ρ)
  · refine (θ_run (Cert.ReferenceIdeal.defs (F := Ideal)) _ _).mono (fun _ h c => ⟨(h c).1.trans ?_, (h c).2⟩)
      (Cert.ReferenceIdeal.RefValue.run m' ρ')
    obtain ⟨e0, e1, e2, e3, e4, e5, e6, e7⟩ := hagree c
    obtain ⟨hx, hW, hb⟩ := Cert.PreReal.first_layer_real _ _ _ _ _ _ _ _ (hpre c)
    rw [e0, e1, e2, e3, e4, e5, e6, e7]
    exact Cert.Bridge.result_same _ _ _ _ _ _ _ _ hx hW hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
